-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x11 : Shape := ⟨2, ![200000, 11]⟩
abbrev S2x1000000 : Shape := ⟨2, ![2, 1000000]⟩
abbrev S200000 : Shape := ⟨1, ![200000]⟩
abbrev S11x64 : Shape := ⟨2, ![11, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x11 : S_.BroadcastsInDim S200000x11 (![] : Fin 0 → Fin S200000x11.rank)
  reducesTo_S200000x11_S_d0_1 : S200000x11.ReducesTo [0, 1] S_
  h_S_ : 0 < S_.numel
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S200000x11 .f32) (main_arg1 : IVec S2x1000000 32) (main_arg2 : IVec S200000 32) (main_arg3 : FVec F S11x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S200000x11 .f32 := Host.absf main_arg0
  let main_cst : FVec F S_ .f32 := constant S_ .f32 0x7F800000#32
  let main_v1 : FVec F S200000x11 .f32 := broadcastInDim S200000x11 ![] bcast_S_S200000x11 main_cst
  let main_v2 : IVec S200000x11 1 := cmpf .olt main_v0 main_v1
  let main_c : IVec S_ 1 := constantI S_ 1 1#1
  let main_v3 : IVec S_ 1 := (fun x v => Host.reduce IntOp.andi x v reducesTo_S200000x11_S_d0_1 h_S_) main_v2 main_c
  let main_v4 : FVec F S11x64 .f32 := Host.absf main_arg3
  let main_cst_0 : FVec F S_ .f32 := constant S_ .f32 0x7F800000#32
  let main_v5 : FVec F S11x64 .f32 := broadcastInDim S11x64 ![] bcast_S_S11x64 main_cst_0
  let main_v6 : IVec S11x64 1 := cmpf .olt main_v4 main_v5
  let main_c_1 : IVec S_ 1 := constantI S_ 1 1#1
  let main_v7 : IVec S_ 1 := (fun x v => Host.reduce IntOp.andi x v reducesTo_S11x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S200000x11 : Shape := ⟨2, ![200000, 11]⟩
abbrev S2x1000000 : Shape := ⟨2, ![2, 1000000]⟩
abbrev S200000 : Shape := ⟨1, ![200000]⟩
abbrev S11x64 : Shape := ⟨2, ![11, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1200000 : Shape := ⟨1, ![1200000]⟩
abbrev S_ : Shape := ⟨0, ![]⟩
abbrev S1200000x1 : Shape := ⟨2, ![1200000, 1]⟩
abbrev S200000x64 : Shape := ⟨2, ![200000, 64]⟩
abbrev S10000x11 : Shape := ⟨2, ![10000, 11]⟩
abbrev S10000x64 : Shape := ⟨2, ![10000, 64]⟩
abbrev S1200000x64 : Shape := ⟨2, ![1200000, 64]⟩
abbrev S1x64 : Shape := ⟨2, ![1, 64]⟩
abbrev S4096x64 : Shape := ⟨2, ![4096, 64]⟩
abbrev S200000x1 : Shape := ⟨2, ![200000, 1]⟩
abbrev S4096 : Shape := ⟨1, ![4096]⟩
abbrev S4096x1 : Shape := ⟨2, ![4096, 1]⟩
abbrev S1x1 : Shape := ⟨2, ![1, 1]⟩

abbrev nBuf : Space → Nat
  | .hbm => 132
  | .vmem => 22
  | .smem => 0
  | _ => 0

abbrev hbmTy0_0 (i : Nat) : BufTy := match i % 128 with
  | 0 => ⟨S200000x11, .f32⟩
  | 1 => ⟨S2x1000000, .i32⟩
  | 2 => ⟨S200000, .i32⟩
  | 3 => ⟨S11x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S200000, .i32⟩
  | 12 => ⟨S1x1000000, .i32⟩
  | 13 => ⟨S1000000, .i32⟩
  | 14 => ⟨S1200000, .i32⟩
  | 15 => ⟨S1x1000000, .i32⟩
  | 16 => ⟨S1000000, .i32⟩
  | 17 => ⟨S1200000, .i32⟩
  | 18 => ⟨S_, .f32⟩
  | 19 => ⟨S1200000, .f32⟩
  | 20 => ⟨S_, .f32⟩
  | 21 => ⟨S200000, .f32⟩
  | 22 => ⟨S1200000x1, .i32⟩
  | 23 => ⟨S200000, .f32⟩
  | 24 => ⟨S_, .f32⟩
  | 25 => ⟨S200000, .f32⟩
  | 26 => ⟨S200000, .i1⟩
  | 27 => ⟨S_, .f32⟩
  | 28 => ⟨S200000, .f32⟩
  | 29 => ⟨S200000, .f32⟩
  | 30 => ⟨S200000, .f32⟩
  | 31 => ⟨S_, .f32⟩
  | 32 => ⟨S_, .f32⟩
  | 33 => ⟨S200000, .f32⟩
  | 34 => ⟨S200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000, .f32⟩
  | 53 => ⟨S1200000, .f32⟩
  | 54 => ⟨S200000x64, .bf16⟩
  | 55 => ⟨S_, .i32⟩
  | 56 => ⟨S1200000, .i32⟩
  | 57 => ⟨S1200000, .i1⟩
  | 58 => ⟨S_, .i32⟩
  | 59 => ⟨S1200000, .i32⟩
  | 60 => ⟨S1200000, .i32⟩
  | 61 => ⟨S1200000, .i32⟩
  | 62 => ⟨S1200000x1, .i32⟩
  | 63 => ⟨S1200000x64, .bf16⟩
  | 64 => ⟨S1200000x64, .f32⟩
  | 65 => ⟨S1200000x1, .f32⟩
  | 66 => ⟨S1200000x64, .f32⟩
  | 67 => ⟨S1200000x64, .f32⟩
  | 68 => ⟨S_, .f32⟩
  | 69 => ⟨S200000x64, .f32⟩
  | 70 => ⟨S1200000x1, .i32⟩
  | 71 => ⟨S200000x64, .f32⟩
  | 72 => ⟨S1x64, .f32⟩
  | 73 => ⟨S200000x64, .bf16⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1200000x64, .bf16⟩
  | 83 => ⟨S1200000x64, .f32⟩
  | 84 => ⟨S1200000x1, .f32⟩
  | 85 => ⟨S1200000x64, .f32⟩
  | 86 => ⟨S1200000x64, .f32⟩
  | 87 => ⟨S_, .f32⟩
  | 88 => ⟨S200000x64, .f32⟩
  | 89 => ⟨S1200000x1, .i32⟩
  | 90 => ⟨S200000x64, .f32⟩
  | 91 => ⟨S1x64, .f32⟩
  | 92 => ⟨S200000x64, .bf16⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000x64, .bf16⟩
  | 102 => ⟨S1200000x64, .f32⟩
  | 103 => ⟨S1200000x1, .f32⟩
  | 104 => ⟨S1200000x64, .f32⟩
  | 105 => ⟨S1200000x64, .f32⟩
  | 106 => ⟨S_, .f32⟩
  | 107 => ⟨S200000x64, .f32⟩
  | 108 => ⟨S1200000x1, .i32⟩
  | 109 => ⟨S200000x64, .f32⟩
  | 110 => ⟨S1x64, .f32⟩
  | 111 => ⟨S200000x64, .f32⟩
  | 112 => ⟨S_, .f32⟩
  | 113 => ⟨S4096x64, .f32⟩
  | 114 => ⟨S200000x1, .i32⟩
  | 115 => ⟨S4096x64, .f32⟩
  | 116 => ⟨S_, .f32⟩
  | 117 => ⟨S200000, .f32⟩
  | 118 => ⟨S_, .f32⟩
  | 119 => ⟨S4096, .f32⟩
  | 120 => ⟨S200000x1, .i32⟩
  | 121 => ⟨S4096, .f32⟩
  | 122 => ⟨S_, .f32⟩
  | 123 => ⟨S4096, .f32⟩
  | 124 => ⟨S4096, .f32⟩
  | 125 => ⟨S4096x1, .f32⟩
  | 126 => ⟨S4096x64, .f32⟩
  | 127 => ⟨S4096x64, .f32⟩
  | _ => ⟨S200000x11, .f32⟩

abbrev hbmTy0_1 (i : Nat) : BufTy := match i % 128 with
  | 0 => ⟨S4096x1, .f32⟩
  | 1 => ⟨S1x1, .f32⟩
  | 2 => ⟨S4096x1, .f32⟩
  | 3 => ⟨S4096x1, .f32⟩
  | _ => ⟨S200000x11, .f32⟩

abbrev hbmTy (i : Nat) : BufTy := match i / 128 with
  | 0 => hbmTy0_0 i
  | 1 => hbmTy0_1 i
  | _ => ⟨S200000x11, .f32⟩

abbrev bufTy : (tb : Table) → Fin (tcTables nBuf tb) → BufTy
  | .hbm, ⟨i, _⟩ => hbmTy i
  | .local _ .vmem, ⟨0, _⟩ => ⟨S10000x11, .f32⟩
  | .local _ .vmem, ⟨1, _⟩ => ⟨S10000x11, .f32⟩
  | .local _ .vmem, ⟨2, _⟩ => ⟨S11x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S200000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S200000_S1200000_d0 : Shape.Concatenates [S1000000, S200000] S1200000 0
  slices_S2x1000000_S1x1000000_1_0 : S2x1000000.Slices ![1, 0] S1x1000000
  bcast_S_S1200000 : S_.BroadcastsInDim S1200000 (![] : Fin 0 → Fin S1200000.rank)
  bcast_S_S200000 : S_.BroadcastsInDim S200000 (![] : Fin 0 → Fin S200000.rank)
  bcast_S1200000_S1200000x1_0 : S1200000.BroadcastsInDim S1200000x1 (![0] : Fin 1 → Fin S1200000x1.rank)
  inb_S10000x11_S10000x11_0_0 : ∀ a, (![0, 0] : Fin 2 → Nat) a + S10000x11.size a ≤ S10000x11.size a
  h_S10000x11 : 0 < S10000x11.numel
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S4096x64 : S_.BroadcastsInDim S4096x64 (![] : Fin 0 → Fin S4096x64.rank)
  bcast_S200000_S200000x1_0 : S200000.BroadcastsInDim S200000x1 (![0] : Fin 1 → Fin S200000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S200000_S1200000x1_S1200000_n_0_0_1_wf : ScatterDims.WF S200000 S1200000x1 S1200000 [] [0] [0] 1
  gather_S200000_S1200000x1_S1200000_n_0_n_n_0_1_1_wf : GatherDims.WF S200000 S1200000x1 S1200000 [] [0] [] [0] [] 1 ![1]
  dot_S10000x11_S11x64_S10000x64_1_0_0_1_n_n_wf : DotDims.WF S10000x11 S11x64 S10000x64 [1] [0] [0] [1] [] []
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S10000x64_S64x64_S10000x64_1_0_0_1_n_n_wf : DotDims.WF S10000x64 S64x64 S10000x64 [1] [0] [0] [1] [] []
  scatter_S4096x64_S200000x1_S200000x64_1_0_0_1_wf : ScatterDims.WF S4096x64 S200000x1 S200000x64 [1] [0] [0] 1
  scatter_S4096_S200000x1_S200000_n_0_0_1_wf : ScatterDims.WF S4096 S200000x1 S200000 [] [0] [0] 1
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S200000x11.size a
  hwx0_0 : ∀ i : grid0.Coords, EltTy.bits .f32 = 32 ∨ (Rect.block (s := S200000x11) S10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x64.size a ≤ S11x64.size a
  hwx0_1 : ∀ i : grid0.Coords, EltTy.bits .f32 = 32 ∨ (Rect.block (s := S11x64) S11x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S200000x64.size a
  hwx0_2 : ∀ i : grid0.Coords, EltTy.bits .bf16 = 32 ∨ (Rect.block (s := S200000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S200000x64.size a
  hwx1_3 : ∀ i : grid1.Coords, EltTy.bits .bf16 = 32 ∨ (Rect.block (s := S200000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S200000x64.size a
  hwx2_3 : ∀ i : grid2.Coords, EltTy.bits .bf16 = 32 ∨ (Rect.block (s := S200000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S200000x64.size a
  hwx3_2 : ∀ i : grid3.Coords, EltTy.bits .f32 = 32 ∨ (Rect.block (s := S200000x64) S10000x64.size (cc3_transform_2 i) (hinb3_2 i)).WholeWords (EltTy.packing .f32)

variable [Facts₀]

def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def dot_S10000x11_S11x64_S10000x64_1_0_0_1_n_n : DotDims S10000x11 S11x64 S10000x64 where
  lhsContracting := [1]
  rhsContracting := [0]
  lhsNonContracting := [0]
  rhsNonContracting := [1]
  lhsBatch := []
  rhsBatch := []
  wf := dot_S10000x11_S11x64_S10000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S4096x64_S200000x1_S200000x64_1_0_0_1 : ScatterDims S4096x64 S200000x1 S200000x64 where
  updateWindowDims := [1]
  insertedWindowDims := [0]
  scatterDimsToOperandDims := [0]
  indexVectorDim := 1
  wf := scatter_S4096x64_S200000x1_S200000x64_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x11 : Shape := ⟨2, ![200000, 11]⟩
abbrev S2x1000000 : Shape := ⟨2, ![2, 1000000]⟩
abbrev S200000 : Shape := ⟨1, ![200000]⟩
abbrev S11x64 : Shape := ⟨2, ![11, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1200000 : Shape := ⟨1, ![1200000]⟩
abbrev S_ : Shape := ⟨0, ![]⟩
abbrev S1200000x1 : Shape := ⟨2, ![1200000, 1]⟩
abbrev S200000x64 : Shape := ⟨2, ![200000, 64]⟩
abbrev S1200000x64 : Shape := ⟨2, ![1200000, 64]⟩
abbrev S1x64 : Shape := ⟨2, ![1, 64]⟩
abbrev S4096x64 : Shape := ⟨2, ![4096, 64]⟩
abbrev S200000x1 : Shape := ⟨2, ![200000, 1]⟩
abbrev S4096 : Shape := ⟨1, ![4096]⟩
abbrev S4096x1 : Shape := ⟨2, ![4096, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S200000x11, .f32⟩
  | 1 => ⟨S2x1000000, .i32⟩
  | 2 => ⟨S200000, .i32⟩
  | 3 => ⟨S11x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S200000, .i32⟩
  | 12 => ⟨S1x1000000, .i32⟩
  | 13 => ⟨S1000000, .i32⟩
  | 14 => ⟨S1200000, .i32⟩
  | 15 => ⟨S1x1000000, .i32⟩
  | 16 => ⟨S1000000, .i32⟩
  | 17 => ⟨S1200000, .i32⟩
  | 18 => ⟨S_, .f32⟩
  | 19 => ⟨S1200000, .f32⟩
  | 20 => ⟨S_, .f32⟩
  | 21 => ⟨S200000, .f32⟩
  | 22 => ⟨S1200000x1, .i32⟩
  | 23 => ⟨S200000, .f32⟩
  | 24 => ⟨S_, .f32⟩
  | 25 => ⟨S200000, .f32⟩
  | 26 => ⟨S200000, .i1⟩
  | 27 => ⟨S_, .f32⟩
  | 28 => ⟨S200000, .f32⟩
  | 29 => ⟨S200000, .f32⟩
  | 30 => ⟨S200000, .f32⟩
  | 31 => ⟨S_, .f32⟩
  | 32 => ⟨S_, .f32⟩
  | 33 => ⟨S200000, .f32⟩
  | 34 => ⟨S200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000, .f32⟩
  | 53 => ⟨S1200000, .f32⟩
  | 54 => ⟨S200000x64, .f32⟩
  | 55 => ⟨S_, .i32⟩
  | 56 => ⟨S1200000, .i32⟩
  | 57 => ⟨S1200000, .i1⟩
  | 58 => ⟨S_, .i32⟩
  | 59 => ⟨S1200000, .i32⟩
  | 60 => ⟨S1200000, .i32⟩
  | 61 => ⟨S1200000, .i32⟩
  | 62 => ⟨S1200000x1, .i32⟩
  | 63 => ⟨S1200000x64, .f32⟩
  | 64 => ⟨S1200000x1, .f32⟩
  | 65 => ⟨S1200000x64, .f32⟩
  | 66 => ⟨S1200000x64, .f32⟩
  | 67 => ⟨S_, .f32⟩
  | 68 => ⟨S200000x64, .f32⟩
  | 69 => ⟨S1200000x1, .i32⟩
  | 70 => ⟨S200000x64, .f32⟩
  | 71 => ⟨S1x64, .f32⟩
  | 72 => ⟨S200000x64, .f32⟩
  | 73 => ⟨S200000x64, .f32⟩
  | 74 => ⟨S_, .f32⟩
  | 75 => ⟨S200000x64, .f32⟩
  | 76 => ⟨S200000x64, .f32⟩
  | 77 => ⟨S200000x64, .f32⟩
  | 78 => ⟨S_, .i32⟩
  | 79 => ⟨S1200000, .i32⟩
  | 80 => ⟨S1200000, .i1⟩
  | 81 => ⟨S_, .i32⟩
  | 82 => ⟨S1200000, .i32⟩
  | 83 => ⟨S1200000, .i32⟩
  | 84 => ⟨S1200000, .i32⟩
  | 85 => ⟨S1200000x1, .i32⟩
  | 86 => ⟨S1200000x64, .f32⟩
  | 87 => ⟨S1200000x1, .f32⟩
  | 88 => ⟨S1200000x64, .f32⟩
  | 89 => ⟨S1200000x64, .f32⟩
  | 90 => ⟨S_, .f32⟩
  | 91 => ⟨S200000x64, .f32⟩
  | 92 => ⟨S1200000x1, .i32⟩
  | 93 => ⟨S200000x64, .f32⟩
  | 94 => ⟨S1x64, .f32⟩
  | 95 => ⟨S200000x64, .f32⟩
  | 96 => ⟨S200000x64, .f32⟩
  | 97 => ⟨S_, .f32⟩
  | 98 => ⟨S200000x64, .f32⟩
  | 99 => ⟨S200000x64, .f32⟩
  | 100 => ⟨S200000x64, .f32⟩
  | 101 => ⟨S_, .i32⟩
  | 102 => ⟨S1200000, .i32⟩
  | 103 => ⟨S1200000, .i1⟩
  | 104 => ⟨S_, .i32⟩
  | 105 => ⟨S1200000, .i32⟩
  | 106 => ⟨S1200000, .i32⟩
  | 107 => ⟨S1200000, .i32⟩
  | 108 => ⟨S1200000x1, .i32⟩
  | 109 => ⟨S1200000x64, .f32⟩
  | 110 => ⟨S1200000x1, .f32⟩
  | 111 => ⟨S1200000x64, .f32⟩
  | 112 => ⟨S1200000x64, .f32⟩
  | 113 => ⟨S_, .f32⟩
  | 114 => ⟨S200000x64, .f32⟩
  | 115 => ⟨S1200000x1, .i32⟩
  | 116 => ⟨S200000x64, .f32⟩
  | 117 => ⟨S1x64, .f32⟩
  | 118 => ⟨S200000x64, .f32⟩
  | 119 => ⟨S200000x64, .f32⟩
  | 120 => ⟨S_, .f32⟩
  | 121 => ⟨S4096x64, .f32⟩
  | 122 => ⟨S200000x1, .i32⟩
  | 123 => ⟨S4096x64, .f32⟩
  | 124 => ⟨S_, .f32⟩
  | 125 => ⟨S200000, .f32⟩
  | 126 => ⟨S_, .f32⟩
  | 127 => ⟨S4096, .f32⟩
  | _ => ⟨S200000x11, .f32⟩

abbrev hbmTy0_1 (i : Nat) : BufTy := match i % 128 with
  | 0 => ⟨S200000x1, .i32⟩
  | 1 => ⟨S4096, .f32⟩
  | 2 => ⟨S_, .f32⟩
  | 3 => ⟨S4096, .f32⟩
  | 4 => ⟨S4096, .f32⟩
  | 5 => ⟨S4096x1, .f32⟩
  | 6 => ⟨S4096x64, .f32⟩
  | 7 => ⟨S4096x64, .f32⟩
  | 8 => ⟨S4096x1, .f32⟩
  | 9 => ⟨S1x1, .f32⟩
  | 10 => ⟨S4096x1, .f32⟩
  | 11 => ⟨S4096x1, .f32⟩
  | _ => ⟨S200000x11, .f32⟩

abbrev hbmTy (i : Nat) : BufTy := match i / 128 with
  | 0 => hbmTy0_0 i
  | 1 => hbmTy0_1 i
  | _ => ⟨S200000x11, .f32⟩

abbrev bufTy : (tb : Table) → Fin (tcTables nBuf tb) → BufTy
  | .hbm, ⟨i, _⟩ => hbmTy i
  | _, _ => ⟨S200000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S200000_S1200000_d0 : Shape.Concatenates [S1000000, S200000] S1200000 0
  slices_S2x1000000_S1x1000000_1_0 : S2x1000000.Slices ![1, 0] S1x1000000
  bcast_S_S1200000 : S_.BroadcastsInDim S1200000 (![] : Fin 0 → Fin S1200000.rank)
  bcast_S_S200000 : S_.BroadcastsInDim S200000 (![] : Fin 0 → Fin S200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S4096x64 : S_.BroadcastsInDim S4096x64 (![] : Fin 0 → Fin S4096x64.rank)
  bcast_S200000_S200000x1_0 : S200000.BroadcastsInDim S200000x1 (![0] : Fin 1 → Fin S200000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S200000_S1200000x1_S1200000_n_0_0_1_wf : ScatterDims.WF S200000 S1200000x1 S1200000 [] [0] [0] 1
  gather_S200000_S1200000x1_S1200000_n_0_n_n_0_1_1_wf : GatherDims.WF S200000 S1200000x1 S1200000 [] [0] [] [0] [] 1 ![1]
  dot_S200000x11_S11x64_S200000x64_1_0_0_1_n_n_wf : DotDims.WF S200000x11 S11x64 S200000x64 [1] [0] [0] [1] [] []
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S200000x64_S64x64_S200000x64_1_0_0_1_n_n_wf : DotDims.WF S200000x64 S64x64 S200000x64 [1] [0] [0] [1] [] []
  scatter_S4096x64_S200000x1_S200000x64_1_0_0_1_wf : ScatterDims.WF S4096x64 S200000x1 S200000x64 [1] [0] [0] 1
  scatter_S4096_S200000x1_S200000_n_0_0_1_wf : ScatterDims.WF S4096 S200000x1 S200000 [] [0] [0] 1
  dot_S4096x64_S64x1_S4096x1_1_0_0_1_n_n_wf : DotDims.WF S4096x64 S64x1 S4096x1 [1] [0] [0] [1] [] []

variable [Facts₀]

def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def gather_S200000_S1200000x1_S1200000_n_0_n_n_0_1_1 : GatherDims S200000 S1200000x1 S1200000 where
  offsetDims := []
  collapsedSliceDims := [0]
  operandBatchingDims := []
  startIndicesBatchingDims := []
  startIndexMap := [0]
  indexVectorDim := 1
  sliceSizes := ![1]
  wf := gather_S200000_S1200000x1_S1200000_n_0_n_n_0_1_1_wf
def dot_S200000x11_S11x64_S200000x64_1_0_0_1_n_n : DotDims S200000x11 S11x64 S200000x64 where
  lhsContracting := [1]
  rhsContracting := [0]
  lhsNonContracting := [0]
  rhsNonContracting := [1]
  lhsBatch := []
  rhsBatch := []
  wf := dot_S200000x11_S11x64_S200000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S4096x64_S200000x1_S200000x64_1_0_0_1 : ScatterDims S4096x64 S200000x1 S200000x64 where
  updateWindowDims := [1]
  insertedWindowDims := [0]
  scatterDimsToOperandDims := [0]
  indexVectorDim := 1
  wf := scatter_S4096x64_S200000x1_S200000x64_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.KRun.lean ====
/-
  The idealized kernel's run with EVERY buffer named. The whole program is eleven segments — stretches of host operations
  and the four pallas_calls — and the contents of the buffers at each segment boundary are a fold from the launch memory:
  a host stretch rewrites the buffers its operations write, a pallas_call leaves in each of its arrays what its write-backs
  leave and every other buffer as it was. Every weakly fair execution terminates, nothing faulting, with every unscoped
  buffer of every core at the last boundary's contents. Read at the result buffer this names the result.
-/
import proofs.«129860_j22084721836225_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds at the launch: its unscoped buffers at the launch memory, its generator register, nothing owed. -/
abbrev T₀ (c : Dev nD) : sProp 𝕄 := iprop(StableHlo.held (c : Thread nD τ) (Pipeline.ucRefs τ sig) (W0 m ρ c) ∗ R c)

set_option backward.isDefEq.respectTransparency.types false in
/-- Every weakly fair execution of the program terminates, nothing faulting, and in the final memory every unscoped
    TensorCore buffer of every core holds the last segment boundary's contents. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's tokens, and nothing per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T₀ m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
      -- the last host stretch's post is the last thread state beside the core owing nothing
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch memory gives each core its first thread state
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      -- the last thread state read against the final memory
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

end Cert.KernelIdeal.Named

end
-- ==== Proof.Kept.lean ====
/-
  What the host stretches of the idealized kernel's program leave alone. Each stretch of host operations writes a known list
  of buffers (every operation writes its own result buffer and nothing else) and a pallas_call writes only its result array,
  so a buffer outside those lists holds at a later segment boundary what it held at an earlier one: the arguments hold the
  launch memory throughout, and the edge lists and the edge weights computed before the first pallas_call are still there
  when the later stretches read them.
-/
import proofs.«129860_j22084721836225_2_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]

/-- The buffers `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps0_1`'s operations write. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps0_2`'s operations write. -/
abbrev hostOps0_2_W : List (Ref sig .tc) := [main_c, main_v17, main_v18, main_c_4, main_v19, main_v20, main_v21, main_v22, main_v23, main_c_5, main_v24, main_v25, main_c_6, main_v26, main_v27, main_v28, main_v29, main_v30, main_v31]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps1`'s operations write. -/
abbrev hostOps1_W : List (Ref sig .tc) := [main_c_7, main_v33, main_v34, main_c_8, main_v35, main_v36, main_v37, main_v38, main_v39, main_v40, main_v41, main_v42, main_v43, main_cst_9, main_v44, main_v45, main_v46, main_v47]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps2`'s operations write. -/
abbrev hostOps2_W : List (Ref sig .tc) := [main_c_10, main_v49, main_v50, main_c_11, main_v51, main_v52, main_v53, main_v54, main_v55, main_v56, main_v57, main_v58, main_v59, main_cst_12, main_v60, main_v61, main_v62, main_v63]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps3`'s operations write. -/
abbrev hostOps3_W : List (Ref sig .tc) := [main_c_13, main_v65, main_v66, main_c_14, main_v67, main_v68, main_v69, main_v70, main_v71, main_v72, main_v73, main_v74, main_v75, main_cst_15, main_v76, main_v77, main_v78, main_v79]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps4`'s operations write. -/
abbrev hostOps4_W : List (Ref sig .tc) := [main_cst_16, main_v81, main_v82, main_v83, main_cst_17, main_v84, main_cst_18, main_v85, main_v86, main_v87, main_cst_19, main_v88, main_v89, main_v90, main_v91, main_v92, main_v93, main_v94, main_v95, main_v96]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-- A buffer none of the operations before the first pallas_call writes holds the launch memory when the call is entered. -/
theorem at3 (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

/-- From the first call's entry to the second's: the first call's result array and the stretch between them aside. -/
theorem at5 (r : Ref sig .tc) (ha : ∀ w, Pipeline.arrRef spec0 w ≠ r) (h : r ∉ hostOps1_W) :
    W5 m ρ c (Proc.devRef .tc r) = W3 m ρ c (Proc.devRef .tc r) :=
  (StableHlo.after_of_writes_sub hostOps1 _ hostOps1_writes h).trans (W4_of_ne m ρ c r ha)

/-- From the second call's entry to the third's. -/
theorem at7 (r : Ref sig .tc) (ha : ∀ w, Pipeline.arrRef spec1 w ≠ r) (h : r ∉ hostOps2_W) :
    W7 m ρ c (Proc.devRef .tc r) = W5 m ρ c (Proc.devRef .tc r) :=
  (StableHlo.after_of_writes_sub hostOps2 _ hostOps2_writes h).trans (W6_of_ne m ρ c r ha)

/-- From the third call's entry to the fourth's. -/
theorem at9 (r : Ref sig .tc) (ha : ∀ w, Pipeline.arrRef spec2 w ≠ r) (h : r ∉ hostOps3_W) :
    W9 m ρ c (Proc.devRef .tc r) = W7 m ρ c (Proc.devRef .tc r) :=
  (StableHlo.after_of_writes_sub hostOps3 _ hostOps3_writes h).trans (W8_of_ne m ρ c r ha)

end Cert.KernelIdeal.Kept

end
-- ==== Proof.Spec.lean ====
/-
  The network both programs compute, as named functions of arrays over the extended reals, spelt with the reference
  program's own host operations.

  A graph convolution layer sends node features h : [200000, 64] to agg (h · W) + b: the dense product, then for every edge
  e (the 1,000,000 given edges followed by one self-loop per node) the source node's row scaled by
  norm e = dis (src e) · dis (dst e) is added into the destination node's row, where dis v = 1/sqrt (max (deg v) 1) if
  deg v > 0 else 0 and deg v counts the edges into v. Three such layers, a rectifier max (·, 0) after the first two; then
  the mean of the node rows of each of the 4096 graphs (sum / max (count, 1)) times lin_w, plus lin_b.
-/
import proofs.«129860_j22084721836225_2_alg».proof.Proof.Gen.ReferenceIdeal
import Idealize.ShloMosaic.PureOps.Ideal

set_option maxRecDepth 8192

noncomputable section

namespace Cert.Spec

open Cert.ReferenceIdeal Cert.ReferenceIdeal.Gen Idealize.ShloMosaic Idealize.ShloMosaic.TcCoe

/-- The edges' destination nodes: row 1 of the edge list, then every node once (the self-loops). -/
def dstOf (ei : IVec S2x1000000 32) : IVec S1200000 32 :=
  concatenate S1200000 0 [⟨S1000000, (shapeCast _ (extractStridedSlice S1x1000000 ![1, 0] ei slices_S2x1000000_S1x1000000_1_0) shapeCasts_S1x1000000_S1000000)⟩, ⟨S200000, (iotaInDim S200000 32 0)⟩] concatenates_S1000000_S200000_S1200000_d0

/-- The edges' source nodes: row 0 of the edge list, then every node once. -/
def srcOf (ei : IVec S2x1000000 32) : IVec S1200000 32 :=
  concatenate S1200000 0 [⟨S1000000, (shapeCast _ (extractStridedSlice S1x1000000 ![0, 0] ei slices_S2x1000000_S1x1000000_0_0) shapeCasts_S1x1000000_S1000000)⟩, ⟨S200000, (iotaInDim S200000 32 0)⟩] concatenates_S1000000_S200000_S1200000_d0

/-- A negative node number counts from the end (jnp's indexing rule). -/
def wrapIdx (v : IVec S1200000 32) : IVec S1200000 32 :=
  select (cmpi .slt v (broadcastInDim S1200000 ![] bcast_S_S1200000 (constantI S_ 32 0#32))) (addi v (broadcastInDim S1200000 ![] bcast_S_S1200000 (constantI S_ 32 200000#32))) v

/-- deg v: the number of edges into node v. -/
def degOf (ei : IVec S2x1000000 32) : FVec Ideal S200000 .f32 :=
  Host.scatterAdd scatter_S200000_S1200000x1_S1200000_n_0_0_1 (broadcastInDim S200000 ![] bcast_S_S200000 (constant (F := Ideal) S_ .f32 0x00000000#32)) (broadcastInDim S1200000x1 ![0] bcast_S1200000_S1200000x1_0 (dstOf ei)) (broadcastInDim S1200000 ![] bcast_S_S1200000 (constant (F := Ideal) S_ .f32 0x3F800000#32))

/-- The choice "r where c, else z" of the per-node scale. -/
def disFrom (c : IVec S200000 1) (r : FVec Ideal S200000 .f32) (z : FVec Ideal S_ .f32) : FVec Ideal S200000 .f32 :=
  select c r (broadcastInDim S200000 ![] bcast_S_S200000 (id z))

/-- Where deg v > 0. -/
def posOf (ei : IVec S2x1000000 32) : IVec S200000 1 :=
  cmpf (F := Ideal) .ogt (degOf ei) (broadcastInDim S200000 ![] bcast_S_S200000 (constant (F := Ideal) S_ .f32 0x00000000#32))

/-- 1/sqrt (max (deg v) 1). -/
def invOf (ei : IVec S2x1000000 32) : FVec Ideal S200000 .f32 :=
  Host.rsqrt (maximumf (degOf ei) (broadcastInDim S200000 ![] bcast_S_S200000 (constant (F := Ideal) S_ .f32 0x3F800000#32)))

/-- The scalar zero. -/
def zeroS : FVec Ideal S_ .f32 := constant (F := Ideal) S_ .f32 0x00000000#32

/-- dis v = 1/sqrt (max (deg v) 1) where deg v > 0, else 0. -/
def disOf (ei : IVec S2x1000000 32) : FVec Ideal S200000 .f32 :=
  disFrom (posOf ei) (invOf ei) zeroS

/-- The edge weights from a per-node scale: norm e = dis (src e) · dis (dst e). -/
def normWith (dis : FVec Ideal S200000 .f32) (src dst : IVec S1200000 32) : FVec Ideal S1200000 .f32 :=
  mulf (Host.gather gather_S200000_S1200000x1_S1200000_n_0_n_n_0_1_1 dis (broadcastInDim S1200000x1 ![0] bcast_S1200000_S1200000x1_0 (wrapIdx src))) (Host.gather gather_S200000_S1200000x1_S1200000_n_0_n_n_0_1_1 dis (broadcastInDim S1200000x1 ![0] bcast_S1200000_S1200000x1_0 (wrapIdx dst)))

/-- norm e = dis (src e) · dis (dst e). -/
def normOf (ei : IVec S2x1000000 32) : FVec Ideal S1200000 .f32 :=
  normWith (disOf ei) (srcOf ei) (dstOf ei)

/-- The aggregation over given edges: every edge e adds row src e of lin, scaled by norm e, into row dst e. -/
def aggWith (src dst : IVec S1200000 32) (norm : FVec Ideal S1200000 .f32) (lin : FVec Ideal S200000x64 .f32) : FVec Ideal S200000x64 .f32 :=
  Host.scatterAdd scatter_S200000x64_S1200000x1_S1200000x64_1_0_0_1 (broadcastInDim S200000x64 ![] bcast_S_S200000x64 (constant (F := Ideal) S_ .f32 0x00000000#32)) (broadcastInDim S1200000x1 ![0] bcast_S1200000_S1200000x1_0 dst) (mulf (Host.gather gather_S200000x64_S1200000x1_S1200000x64_1_0_n_n_0_1_164 lin (broadcastInDim S1200000x1 ![0] bcast_S1200000_S1200000x1_0 (wrapIdx src))) (broadcastInDim S1200000x64 ![0, 1] bcast_S1200000x1_S1200000x64_0_1 (broadcastInDim S1200000x1 ![0] bcast_S1200000_S1200000x1_0 norm)))

/-- The aggregation over the graph's edges with their self-loops and the symmetric normalization. -/
def aggOf (ei : IVec S2x1000000 32) (lin : FVec Ideal S200000x64 .f32) : FVec Ideal S200000x64 .f32 :=
  aggWith (srcOf ei) (dstOf ei) (normOf ei) lin

/-- A bias recast as a [1, 64] row (what the kernel's program hands its pallas_calls). -/
def rowOf (b : FVec Ideal S64 .f32) (h : S64.ShapeCasts S1x64) : FVec Ideal S1x64 .f32 := shapeCast S1x64 b h

/-- A bias row laid under every node's row. -/
def biasRows (b : FVec Ideal S64 .f32) : FVec Ideal S200000x64 .f32 :=
  broadcastInDim S200000x64 ![0, 1] bcast_S1x64_S200000x64_0_1 (broadcastInDim S1x64 ![1] bcast_S64_S1x64_1 b)

/-- The rectifier max (·, 0). -/
def reluOf (h : FVec Ideal S200000x64 .f32) : FVec Ideal S200000x64 .f32 :=
  maximumf h (broadcastInDim S200000x64 ![] bcast_S_S200000x64 (constant (F := Ideal) S_ .f32 0x00000000#32))

/-- The first layer's dense product x · W1. -/
def dense1 (x : FVec Ideal S200000x11 .f32) (w : FVec Ideal S11x64 .f32) : FVec Ideal S200000x64 .f32 :=
  Host.dotGeneral dot_S200000x11_S11x64_S200000x64_1_0_0_1_n_n none x w

/-- A later layer's dense product h · W. -/
def dense (h : FVec Ideal S200000x64 .f32) (w : FVec Ideal S64x64 .f32) : FVec Ideal S200000x64 .f32 :=
  Host.dotGeneral dot_S200000x64_S64x64_S200000x64_1_0_0_1_n_n none h w

/-- The read-out: the mean node row of each graph, times lin_w, plus lin_b. -/
def tailOf (h : FVec Ideal S200000x64 .f32) (batch : IVec S200000 32) (lw : FVec Ideal S64x1 .f32) (lb : FVec Ideal S1 .f32) : FVec Ideal S4096x1 .f32 :=
  addf (Host.dotGeneral dot_S4096x64_S64x1_S4096x1_1_0_0_1_n_n none (Host.divf (Host.scatterAdd scatter_S4096x64_S200000x1_S200000x64_1_0_0_1 (broadcastInDim S4096x64 ![] bcast_S_S4096x64 (constant (F := Ideal) S_ .f32 0x00000000#32)) (broadcastInDim S200000x1 ![0] bcast_S200000_S200000x1_0 batch) h) (broadcastInDim S4096x64 ![0, 1] bcast_S4096x1_S4096x64_0_1 (broadcastInDim S4096x1 ![0] bcast_S4096_S4096x1_0 (maximumf (Host.scatterAdd scatter_S4096_S200000x1_S200000_n_0_0_1 (broadcastInDim S4096 ![] bcast_S_S4096 (constant (F := Ideal) S_ .f32 0x00000000#32)) (broadcastInDim S200000x1 ![0] bcast_S200000_S200000x1_0 batch) (broadcastInDim S200000 ![] bcast_S_S200000 (constant (F := Ideal) S_ .f32 0x3F800000#32))) (broadcastInDim S4096 ![] bcast_S_S4096 (constant (F := Ideal) S_ .f32 0x3F800000#32)))))) lw) (broadcastInDim S4096x1 ![0, 1] bcast_S1x1_S4096x1_0_1 (broadcastInDim S1x1 ![1] bcast_S1_S1x1_1 lb))

/-- The first layer: rectified aggregation of x · W1, plus bias. -/
def layer1 (x : FVec Ideal S200000x11 .f32) (ei : IVec S2x1000000 32) (w1 : FVec Ideal S11x64 .f32) (b1 : FVec Ideal S64 .f32) : FVec Ideal S200000x64 .f32 :=
  reluOf (addf (aggOf ei (dense1 x w1)) (biasRows b1))

/-- The second layer: rectified aggregation of h · W2, plus bias. -/
def layer2 (h : FVec Ideal S200000x64 .f32) (ei : IVec S2x1000000 32) (w2 : FVec Ideal S64x64 .f32) (b2 : FVec Ideal S64 .f32) : FVec Ideal S200000x64 .f32 :=
  reluOf (addf (aggOf ei (dense h w2)) (biasRows b2))

/-- The third layer: aggregation of h · W3, plus bias; no rectifier. -/
def layer3 (h : FVec Ideal S200000x64 .f32) (ei : IVec S2x1000000 32) (w3 : FVec Ideal S64x64 .f32) (b3 : FVec Ideal S64 .f32) : FVec Ideal S200000x64 .f32 :=
  addf (aggOf ei (dense h w3)) (biasRows b3)

/-- The node features after the three layers. -/
def nodesOf (x : FVec Ideal S200000x11 .f32) (ei : IVec S2x1000000 32) (w1 : FVec Ideal S11x64 .f32) (b1 : FVec Ideal S64 .f32) (w2 : FVec Ideal S64x64 .f32) (b2 : FVec Ideal S64 .f32) (w3 : FVec Ideal S64x64 .f32) (b3 : FVec Ideal S64 .f32) : FVec Ideal S200000x64 .f32 :=
  layer3 (layer2 (layer1 x ei w1 b1) ei w2 b2) ei w3 b3

/-- The whole network. -/
def result (x : FVec Ideal S200000x11 .f32) (ei : IVec S2x1000000 32) (batch : IVec S200000 32) (w1 : FVec Ideal S11x64 .f32) (b1 : FVec Ideal S64 .f32) (w2 : FVec Ideal S64x64 .f32) (b2 : FVec Ideal S64 .f32) (w3 : FVec Ideal S64x64 .f32) (b3 : FVec Ideal S64 .f32) (lw : FVec Ideal S64x1 .f32) (lb : FVec Ideal S1 .f32) : FVec Ideal S4096x1 .f32 :=
  tailOf (nodesOf x ei w1 b1 w2 b2 w3 b3) batch lw lb

end Cert.Spec

end
-- ==== Proof.Stretch.lean ====
/-
  The idealized kernel's stretches of host operations, each read as named functions of the buffers it starts from (contents
  one does not look inside). Before the first pallas_call: the edges' source and destination nodes, where a node's degree is
  positive and its inverse square root, then the per-node scale, then the edge weights norm e = dis (src e) · dis (dst e).
  Between the calls: the aggregation of a call's result over the edges (the gather reads the result at its bf16 type; widening
  to f32 is the identity over the extended reals), and the next bias recast as a [1, 64] row. After the last call: the
  read-out. The operations are the reference's own, so each stretch's result is the corresponding named part of the network.
-/
import proofs.«129860_j22084721836225_2_alg».proof.Proof.Gen.KernelIdeal.Frame
import proofs.«129860_j22084721836225_2_alg».proof.Proof.Spec
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable (W : Valuation τ sig (Elt Ideal))

/-! ## Before the first pallas_call -/

set_option maxHeartbeats 2000000 in
/-- The edges' source nodes. -/
theorem src_eq : StableHlo.after hostOps0 W (Proc.devRef .tc main_v3) = Cert.Spec.srcOf (W (Proc.devRef .tc main_arg1)) := by
  dsimp only [hostOps0]
  after_results_simp
  rfl

set_option maxHeartbeats 2000000 in
/-- The edges' destination nodes. -/
theorem dst_eq : StableHlo.after hostOps0 W (Proc.devRef .tc main_v6) = Cert.Spec.dstOf (W (Proc.devRef .tc main_arg1)) := by
  dsimp only [hostOps0]
  after_results_simp
  rfl

set_option maxHeartbeats 2000000 in
/-- Where a node's degree is positive. -/
theorem pos_eq : StableHlo.after hostOps0 W (Proc.devRef .tc main_v12) = Cert.Spec.posOf (W (Proc.devRef .tc main_arg1)) := by
  dsimp only [hostOps0]
  after_results_simp
  rfl

set_option maxHeartbeats 2000000 in
/-- The inverse square root of max (degree, 1). -/
theorem inv_eq : StableHlo.after hostOps0 W (Proc.devRef .tc main_v15) = Cert.Spec.invOf (W (Proc.devRef .tc main_arg1)) := by
  dsimp only [hostOps0]
  after_results_simp
  rfl

set_option maxHeartbeats 2000000 in
/-- The scalar zero. -/
theorem zero_eq : StableHlo.after hostOps0 W (Proc.devRef .tc main_cst_3) = Cert.Spec.zeroS := by
  dsimp only [hostOps0]
  after_results_simp
  rfl

set_option maxHeartbeats 2000000 in
/-- The per-node scale, chosen between the inverse square root and zero. -/
theorem dis_eq : StableHlo.after hostOps0_1 W (Proc.devRef .tc main_v16) = Cert.Spec.disFrom (W (Proc.devRef .tc main_v12)) (W (Proc.devRef .tc main_v15)) (W (Proc.devRef .tc main_cst_3)) := by
  dsimp only [hostOps0_1]
  after_results_simp
  rfl

set_option maxHeartbeats 2000000 in
/-- The edge weights. -/
theorem norm_eq : StableHlo.after hostOps0_2 W (Proc.devRef .tc main_v31) = Cert.Spec.normWith (W (Proc.devRef .tc main_v16)) (W (Proc.devRef .tc main_v3)) (W (Proc.devRef .tc main_v6)) := by
  dsimp only [hostOps0_2]
  after_results_simp
  rfl

/-! ## Between the pallas_calls -/

set_option maxHeartbeats 2000000 in
/-- The first layer's aggregation. -/
theorem agg1_eq : StableHlo.after hostOps1 W (Proc.devRef .tc main_v46) = Cert.Spec.aggWith (W (Proc.devRef .tc main_v3)) (W (Proc.devRef .tc main_v6)) (W (Proc.devRef .tc main_v31)) (W (Proc.devRef .tc main_v32)) := by
  dsimp only [hostOps1]
  after_results_simp
  rfl

set_option maxHeartbeats 2000000 in
/-- The first bias as a row. -/
theorem row1_eq : StableHlo.after hostOps1 W (Proc.devRef .tc main_v47) = Cert.Spec.rowOf (W (Proc.devRef .tc main_arg4)) shapeCasts_S64_S1x64 := by
  dsimp only [hostOps1]
  after_results_simp
  rfl

set_option maxHeartbeats 2000000 in
/-- The second layer's aggregation. -/
theorem agg2_eq : StableHlo.after hostOps2 W (Proc.devRef .tc main_v62) = Cert.Spec.aggWith (W (Proc.devRef .tc main_v3)) (W (Proc.devRef .tc main_v6)) (W (Proc.devRef .tc main_v31)) (W (Proc.devRef .tc main_v48)) := by
  dsimp only [hostOps2]
  after_results_simp
  rfl

set_option maxHeartbeats 2000000 in
/-- The second bias as a row. -/
theorem row2_eq : StableHlo.after hostOps2 W (Proc.devRef .tc main_v63) = Cert.Spec.rowOf (W (Proc.devRef .tc main_arg6)) shapeCasts_S64_S1x64 := by
  dsimp only [hostOps2]
  after_results_simp
  rfl

set_option maxHeartbeats 2000000 in
/-- The third layer's aggregation. -/
theorem agg3_eq : StableHlo.after hostOps3 W (Proc.devRef .tc main_v78) = Cert.Spec.aggWith (W (Proc.devRef .tc main_v3)) (W (Proc.devRef .tc main_v6)) (W (Proc.devRef .tc main_v31)) (W (Proc.devRef .tc main_v64)) := by
  dsimp only [hostOps3]
  after_results_simp
  rfl

set_option maxHeartbeats 2000000 in
/-- The third bias as a row. -/
theorem row3_eq : StableHlo.after hostOps3 W (Proc.devRef .tc main_v79) = Cert.Spec.rowOf (W (Proc.devRef .tc main_arg8)) shapeCasts_S64_S1x64 := by
  dsimp only [hostOps3]
  after_results_simp
  rfl

/-! ## After the last pallas_call -/

set_option maxHeartbeats 2000000 in
/-- The read-out. -/
theorem tail_eq : StableHlo.after hostOps4 W (Proc.devRef .tc main_v96) = Cert.Spec.tailOf (W (Proc.devRef .tc main_v80)) (W (Proc.devRef .tc main_arg2)) (W (Proc.devRef .tc main_arg9)) (W (Proc.devRef .tc main_arg10)) := by
  dsimp only [hostOps4]
  after_results_simp
  rfl

end Cert.KernelIdeal.Stretch

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibMatRows.lean ====
/-
  Matrices over the extended reals as whole arrays, generic in the extents.
  `prod x w`: the product of an [n, k] matrix with a [k, b] matrix, entry (p, q) = Σ_j x (p, j) · w (j, q). For dimension numbers
  that contract the left operand's axis 1 with the right operand's axis 0 and have no batch axis, a host dot_general IS this
  array (`hostDot_eq`) and the matrix unit's product into a zero accumulator has its entries (`matmul_zero_apply`); the two
  sum readings are LibDot's, which this file imports.
  `under B`: a [1, c] row laid under every row of an [n, c] matrix; `plusRow X B`: the matrix plus that row;
  `act X B`: the rectified sum max (X + row, 0) against the f32 zero word. `plusRow_congr` and `act_mul_congr` read a row sum, or
  one term of the product of a rectified sum with a matrix, at two places that hold the same entries — what a block of rows
  of such an array needs when it is compared with the whole array.
-/
import proofs.«129860_j22084721836225_2_alg».proof.Proof.LibDot

noncomputable section

namespace Cert.LibMatRows

open Idealize.ShloMosaic Idealize.ShloMosaic.ValueIdx
open scoped BigOperators

/-- The matrix product, entry by entry. -/
def prod {n k b : ℕ} (x : (⟨2, ![n, k]⟩ : Shape).Idx → EReal) (w : (⟨2, ![k, b]⟩ : Shape).Idx → EReal) :
    (⟨2, ![n, b]⟩ : Shape).Idx → EReal :=
  fun i => ∑ j : Fin k, x (ix2 (n0 := n) (n1 := k) (i 0) j) * w (ix2 (n0 := k) (n1 := b) j (i 1))

theorem prod_apply {n k b : ℕ} (x : (⟨2, ![n, k]⟩ : Shape).Idx → EReal) (w : (⟨2, ![k, b]⟩ : Shape).Idx → EReal)
    (p : Fin n) (q : Fin b) : prod x w (ix2 p q) = ∑ j : Fin k, x (ix2 p j) * w (ix2 j q) := rfl

/-- A [1, c] row laid under every row of an [n, c] matrix: entry (p, j) is the row's entry j. -/
def under {n c : ℕ} (B : (⟨2, ![1, c]⟩ : Shape).Idx → EReal) : (⟨2, ![n, c]⟩ : Shape).Idx → EReal :=
  fun i => B (ix2 (n0 := 1) (n1 := c) (0 : Fin 1) (i 1))

/-- The matrix plus the row under every row. -/
def plusRow {n c : ℕ} (X : (⟨2, ![n, c]⟩ : Shape).Idx → EReal) (B : (⟨2, ![1, c]⟩ : Shape).Idx → EReal) :
    (⟨2, ![n, c]⟩ : Shape).Idx → EReal := fun i => X i + under (n := n) B i

/-- The rectified sum max (X + row, 0). -/
def act {n c : ℕ} (X : (⟨2, ![n, c]⟩ : Shape).Idx → EReal) (B : (⟨2, ![1, c]⟩ : Shape).Idx → EReal) :
    (⟨2, ![n, c]⟩ : Shape).Idx → EReal := fun i => max (plusRow X B i) (Ideal.ofBits .f32 0x00000000#32)

/-- The row sum read at two places that hold the same entries. -/
theorem plusRow_congr {n n' c : ℕ} (X : (⟨2, ![n, c]⟩ : Shape).Idx → EReal) (B : (⟨2, ![1, c]⟩ : Shape).Idx → EReal)
    (X' : (⟨2, ![n', c]⟩ : Shape).Idx → EReal) (B' : (⟨2, ![1, c]⟩ : Shape).Idx → EReal) (p : Fin n) (p' : Fin n') (k k' : Fin c)
    (hx : X (ix2 p k) = X' (ix2 p' k')) (hb : B (ix2 (0 : Fin 1) k) = B' (ix2 (0 : Fin 1) k')) :
    plusRow X B (ix2 p k) = plusRow X' B' (ix2 p' k') := by
  show X (ix2 p k) + B (ix2 (0 : Fin 1) k) = X' (ix2 p' k') + B' (ix2 (0 : Fin 1) k')
  rw [hx, hb]

/-- One term of the product of a rectified sum with a matrix, read at two places that hold the same entries. -/
theorem act_mul_congr {n n' c b b' : ℕ} (X : (⟨2, ![n, c]⟩ : Shape).Idx → EReal) (B : (⟨2, ![1, c]⟩ : Shape).Idx → EReal)
    (W : (⟨2, ![c, b]⟩ : Shape).Idx → EReal) (X' : (⟨2, ![n', c]⟩ : Shape).Idx → EReal) (B' : (⟨2, ![1, c]⟩ : Shape).Idx → EReal)
    (W' : (⟨2, ![c, b']⟩ : Shape).Idx → EReal) (p : Fin n) (p' : Fin n') (k : Fin c) (q : Fin b) (q' : Fin b')
    (hx : X (ix2 p k) = X' (ix2 p' k)) (hb : B (ix2 (0 : Fin 1) k) = B' (ix2 (0 : Fin 1) k))
    (hw : W (ix2 k q) = W' (ix2 k q')) :
    act X B (ix2 p k) * W (ix2 k q) = act X' B' (ix2 p' k) * W' (ix2 k q') := by
  show max (X (ix2 p k) + B (ix2 (0 : Fin 1) k)) _ * W (ix2 k q) = max (X' (ix2 p' k) + B' (ix2 (0 : Fin 1) k)) _ * W' (ix2 k q')
  rw [hx, hb, hw]

variable {n k b : ℕ} (D : DotDims ⟨2, ![n, k]⟩ ⟨2, ![k, b]⟩ ⟨2, ![n, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The host's dot_general is the matrix product. -/
theorem hostDot_eq {φ₁ φ₂ : FTy} (prec : Option ContractPrecision) (lhs : FVec Ideal ⟨2, ![n, k]⟩ φ₁)
    (rhs : FVec Ideal ⟨2, ![k, b]⟩ φ₂) : Host.dotGeneral D prec lhs rhs = prod lhs rhs := by
  funext i
  rw [eq_ix2 i]
  exact Cert.LibDot.dotGeneral_apply D hr hs hl0 hl1 hr0 hr1 prec .single lhs rhs (i 0) (i 1)

/-- The matrix unit's product into a zero accumulator, at an entry, is the matrix product's entry. -/
theorem matmul_zero_apply {φ₁ φ₂ : FTy} (prec : Option ContractPrecision) (lhs : FVec Ideal ⟨2, ![n, k]⟩ φ₁)
    (rhs : FVec Ideal ⟨2, ![k, b]⟩ φ₂) (p : Fin n) (q : Fin b) :
    FloatOps.matmul D prec lhs rhs (constant ⟨2, ![n, b]⟩ .f32 0x00000000#32) (ix2 p q) = prod lhs rhs (ix2 p q) :=
  Cert.LibDot.matmul_zero_apply D hr hs hl0 hl1 hr0 hr1 prec lhs rhs p q

end Cert.LibMatRows

end
-- ==== Proof.Region0.lean ====
/-
  The first layer's dense product. The first pallas_call cuts x : [200000, 11] into 20 blocks of 10000 rows, multiplies
  each block by the whole W1 : [11, 64] on the matrix unit (into a zero accumulator; rounding to bf16 is the identity
  over the extended reals) and writes the block of 10000 result rows back. Row r of the result lies in block r / 10000,
  and entry (r, q) is Σ_k x (r, k) · W1 (k, q) whichever block computed it: the result array is the matrix product x · W1.
-/
import proofs.«129860_j22084721836225_2_alg».proof.Proof.Gen.KernelIdeal.Frame
import proofs.«129860_j22084721836225_2_alg».proof.Proof.LibMatRows
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen
open scoped BigOperators

theorem zeros2 : (![0, 0] : Fin 2 → Nat) = fun _ => 0 := funext fun a => by fin_cases a <;> rfl

/-- One block's product: entry (p, q) of what the body stores is the matrix product's entry. -/
theorem block_apply (x0 : Vec Ideal S10000x11 .f32) (x1 : Vec Ideal S11x64 .f32) (p : Fin 10000) (q : Fin 64) :
    k0_pay1 (F := Ideal) x0 x1 (ix2 p q) = Cert.LibMatRows.prod x0 x1 (ix2 p q) := by
  unfold k0_pay1
  exact Cert.LibMatRows.matmul_zero_apply dot_S10000x11_S11x64_S10000x64_1_0_0_1_n_n rfl rfl (fun _ _ => rfl) (fun _ _ => rfl)
    (fun _ _ => rfl) (fun _ _ => rfl) none _ _ p q

/-- Where the windows' blocks sit at each grid point: the x block and the result block at point t start at row
    10000 · t, column 0; the W1 block is the whole array. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

section
variable (V : (c : Dev nD) → (b : Ref sig .tc) → Buf (Elt Ideal) ((c : Thread nD τ).loc b))

/-- What grid point t writes back is block t of the matrix product of the arrays the region finds. -/
theorem flushed_eq (c : Dev nD) (t : Fin cfg0.N) :
    (dat0 V c).flushed 2 t = ((cfg0.win 2).blk t).view.read (Elt Ideal) (Cert.LibMatRows.prod (V c main_arg0) (V c main_arg3)) := by
  show (cfg0.win 2).cut (grid0.coords t) ((dat0 V c).after 2 t) = _
  rw [after0_2]
  unfold out0_2
  rw [View.canon_unit_zero zeros2]
  simp only [View.ld_unit_zero (S := S10000x11) zeros2, View.ld_unit_zero (S := S11x64) zeros2]
  obtain ⟨e0, e1, e2, e3, e4, e5⟩ := index_facts t
  funext j
  obtain ⟨p, q, rfl⟩ : ∃ (p : Fin 10000) (q : Fin 64), j = ix2 p q := ⟨j 0, j 1, eq_ix2 j⟩
  refine (block_apply (iblk0 V c 0 t) (iblk0 V c 1 t) p q).trans ?_
  rw [View.read_apply, Cert.LibMatRows.prod_apply]
  unfold Cert.LibMatRows.prod
  refine Finset.sum_congr rfl fun k _ => ?_
  have hx : iblk0 V c 0 t (ix2 p k)
      = V c main_arg0 (ix2 (n0 := 200000) (n1 := 11) ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 11 + 1 * k.val = k.val; omega
  have hw : iblk0 V c 1 t (ix2 k q)
      = V c main_arg3 (ix2 (n0 := 11) (n1 := 64) k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 11 + 1 * k.val = k.val; omega
    | ⟨1, _⟩ => show win0_1.index t (1 : Fin 2) * 64 + 1 * q.val = win0_2.index t (1 : Fin 2) * 64 + 1 * q.val; omega
  rw [hx, hw]

/-- An index of the result array lies in point t's block iff each coordinate lies in the block's range. -/
theorem mem_blk (t : Fin cfg0.N) (i : S200000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Every block of rows is some grid point's. -/
theorem point_onto : ∀ q0 : Fin 20, ∃ t : Fin cfg0.N, win0_2.index t = ![q0.val, 0] :=
  (by decide +kernel : ∀ q0 : Fin 20, ∃ t : Fin grid0.N, win0_2.index t = ![q0.val, 0])

/-- Row r lies in the block of point r / 10000: the 20 blocks cover the result array. -/
theorem cover (i : S200000x64.Idx) :
    ∃ t : Fin cfg0.N, (cfg0.win 2).flush t = true ∧ i ∈ ((cfg0.win 2).blk t).view.set := by
  have hi0 : (i 0).val < 200000 := (i 0).isLt
  have hi1 : (i 1).val < 64 := (i 1).isLt
  obtain ⟨t, ht⟩ := point_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The region's result array, after the run, is the matrix product of the two arrays the region finds. -/
theorem array_eq (c : Dev nD) :
    (dat0 V c).arrAt 2 cfg0.N = Cert.LibMatRows.prod (V c main_arg0) (V c main_arg3) :=
  (dat0 V c).arrAt_eq_of_cover 2 _ (fun t _ => flushed_eq V c t) cover

end

end Cert.KernelIdeal.Layer1

end
-- ==== Proof.Region1.lean ====
/-
  The second layer's dense product, with the first layer's bias and rectifier fused in. The pallas_call cuts the aggregated features [200000, 64] into 20 blocks of 10000 rows; on each block it adds the
  bias row [1, 64] under every row, takes max (·, 0), and multiplies by the whole weight matrix [64, 64] on the matrix unit
  (into a zero accumulator; rounding to bf16 is the identity over the extended reals). Row r of the result lies in block
  r / 10000, and entry (r, q) is Σ_k max (agg (r, k) + bias k, 0) · W (k, q) whichever block computed it: the result array is
  the matrix product of the rectified sum with W.
-/
import proofs.«129860_j22084721836225_2_alg».proof.Proof.Gen.KernelIdeal.Frame
import proofs.«129860_j22084721836225_2_alg».proof.Proof.LibMatRows
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen
open scoped BigOperators

theorem zeros2 : (![0, 0] : Fin 2 → Nat) = fun _ => 0 := funext fun a => by fin_cases a <;> rfl

/-- The rectified sum inside one block, at an entry. -/
theorem act_apply (x0 : Vec Ideal S10000x64 .f32) (x1 : Vec Ideal S1x64 .f32) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
    = Cert.LibMatRows.act x0 x1 (ix2 p k) := by
  rw [shapeCast_self x0, shapeCast_self x1]
  have hb : broadcastTo S10000x64 x1 broadcasts_S1x64_S10000x64 (ix2 p k) = x1 (ix2 (0 : Fin 1) k) :=
    broadcastTo_apply x1 broadcasts_S1x64_S10000x64 (ix2 p k) (ix2 (0 : Fin 1) k) fun a => by
      match a with
      | ⟨0, _⟩ => rfl
      | ⟨1, _⟩ => rfl
  show max (x0 (ix2 p k) + broadcastTo S10000x64 x1 broadcasts_S1x64_S10000x64 (ix2 p k)) _ = _
  rw [hb]
  rfl

/-- One block's product: entry (p, q) of what the body stores is the matrix product's entry. -/
theorem block_apply (x0 : Vec Ideal S10000x64 .f32) (x1 : Vec Ideal S1x64 .f32) (x2 : Vec Ideal S64x64 .f32)
    (p : Fin 10000) (q : Fin 64) :
    k1_pay1 (F := Ideal) x0 x1 x2 (ix2 p q) = Cert.LibMatRows.prod (Cert.LibMatRows.act x0 x1) x2 (ix2 p q) := by
  unfold k1_pay1
  refine (Cert.LibMatRows.matmul_zero_apply dot_S10000x64_S64x64_S10000x64_1_0_0_1_n_n rfl rfl (fun _ _ => rfl) (fun _ _ => rfl)
    (fun _ _ => rfl) (fun _ _ => rfl) none _ _ p q).trans ?_
  rw [Cert.LibMatRows.prod_apply, Cert.LibMatRows.prod_apply]
  refine Finset.sum_congr rfl fun k _ => ?_
  exact congrArg (· * x2 (ix2 k q)) (act_apply x0 x1 p k)

/-- Where the windows' blocks sit at each grid point: the feature block and the result block at point t start at row
    10000 · t, column 0; the bias row and the weight matrix are whole. -/
theorem index_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

section
variable (V : (c : Dev nD) → (b : Ref sig .tc) → Buf (Elt Ideal) ((c : Thread nD τ).loc b))

/-- What grid point t writes back is block t of the product, of the arrays the region finds. -/
theorem flushed_eq (c : Dev nD) (t : Fin cfg1.N) :
    (dat1 V c).flushed 3 t = ((cfg1.win 3).blk t).view.read (Elt Ideal)
      (Cert.LibMatRows.prod (Cert.LibMatRows.act (V c main_v46) (V c main_v47)) (V c main_arg5)) := by
  show (cfg1.win 3).cut (grid1.coords t) ((dat1 V c).after 3 t) = _
  rw [after1_3]
  unfold out1_3
  rw [View.canon_unit_zero zeros2]
  simp only [View.ld_unit_zero (S := S10000x64) zeros2, View.ld_unit_zero (S := S1x64) zeros2, View.ld_unit_zero (S := S64x64) zeros2]
  obtain ⟨e0, e1, e2, e3, e4, e5, e6⟩ := index_facts t
  funext j
  obtain ⟨p, q, rfl⟩ : ∃ (p : Fin 10000) (q : Fin 64), j = ix2 p q := ⟨j 0, j 1, eq_ix2 j⟩
  refine (block_apply (iblk1 V c 0 t) (iblk1 V c 1 t) (iblk1 V c 2 t) p q).trans ?_
  rw [View.read_apply, Cert.LibMatRows.prod_apply]
  unfold Cert.LibMatRows.prod
  refine Finset.sum_congr rfl fun k _ => ?_
  have hx : iblk1 V c 0 t (ix2 p k)
      = V c main_v46 (ix2 (n0 := 200000) (n1 := 64) ((((cfg1.win 3).blk t).view.emb (ix2 p q)) 0) k) := by
    show V c main_v46 (((cfg1.win 0).blk t).view.emb (ix2 p k)) = _
    refine congrArg (V c main_v46) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have hb : iblk1 V c 1 t (ix2 (0 : Fin 1) k) = V c main_v47 (ix2 (n0 := 1) (n1 := 64) (0 : Fin 1) k) := by
    show V c main_v47 (((cfg1.win 1).blk t).view.emb (ix2 (0 : Fin 1) k)) = _
    refine congrArg (V c main_v47) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hw : iblk1 V c 2 t (ix2 k q)
      = V c main_arg5 (ix2 (n0 := 64) (n1 := 64) k ((((cfg1.win 3).blk t).view.emb (ix2 p q)) 1)) := by
    show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  exact Cert.LibMatRows.act_mul_congr (iblk1 V c 0 t) (iblk1 V c 1 t) (iblk1 V c 2 t) _ _ _ p _ k q _ hx hb hw

/-- An index of the result array lies in point t's block iff each coordinate lies in the block's range. -/
theorem mem_blk (t : Fin cfg1.N) (i : S200000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v48).slice (win1_3.rect t)).set ↔ _
  rw [View.set_slice_whole, Rect.mem_set_unit]
  exact Iff.rfl

/-- Every block of rows is some grid point's. -/
theorem point_onto : ∀ q0 : Fin 20, ∃ t : Fin cfg1.N, win1_3.index t = ![q0.val, 0] :=
  (by decide +kernel : ∀ q0 : Fin 20, ∃ t : Fin grid1.N, win1_3.index t = ![q0.val, 0])

/-- Row r lies in the block of point r / 10000: the 20 blocks cover the result array. -/
theorem cover (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  obtain ⟨t, ht⟩ := point_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The region's result array, after the run, is the product of the rectified sum with the weights, of the arrays the
    region finds. -/
theorem array_eq (c : Dev nD) :
    (dat1 V c).arrAt 3 cfg1.N = Cert.LibMatRows.prod (Cert.LibMatRows.act (V c main_v46) (V c main_v47)) (V c main_arg5) :=
  (dat1 V c).arrAt_eq_of_cover 3 _ (fun t _ => flushed_eq V c t) cover

end

end Cert.KernelIdeal.Layer2

end
-- ==== Proof.Region2.lean ====
/-
  The third layer's dense product, with the second layer's bias and rectifier fused in. The pallas_call cuts the aggregated features [200000, 64] into 20 blocks of 10000 rows; on each block it adds the
  bias row [1, 64] under every row, takes max (·, 0), and multiplies by the whole weight matrix [64, 64] on the matrix unit
  (into a zero accumulator; rounding to bf16 is the identity over the extended reals). Row r of the result lies in block
  r / 10000, and entry (r, q) is Σ_k max (agg (r, k) + bias k, 0) · W (k, q) whichever block computed it: the result array is
  the matrix product of the rectified sum with W.
-/
import proofs.«129860_j22084721836225_2_alg».proof.Proof.Gen.KernelIdeal.Frame
import proofs.«129860_j22084721836225_2_alg».proof.Proof.LibMatRows
import Idealize.ShloMosaic.Lib.Pipeline.Value

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen
open scoped BigOperators

theorem zeros2 : (![0, 0] : Fin 2 → Nat) = fun _ => 0 := funext fun a => by fin_cases a <;> rfl

/-- The rectified sum inside one block, at an entry. -/
theorem act_apply (x0 : Vec Ideal S10000x64 .f32) (x1 : Vec Ideal S1x64 .f32) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
    = Cert.LibMatRows.act x0 x1 (ix2 p k) := by
  rw [shapeCast_self x0, shapeCast_self x1]
  have hb : broadcastTo S10000x64 x1 broadcasts_S1x64_S10000x64 (ix2 p k) = x1 (ix2 (0 : Fin 1) k) :=
    broadcastTo_apply x1 broadcasts_S1x64_S10000x64 (ix2 p k) (ix2 (0 : Fin 1) k) fun a => by
      match a with
      | ⟨0, _⟩ => rfl
      | ⟨1, _⟩ => rfl
  show max (x0 (ix2 p k) + broadcastTo S10000x64 x1 broadcasts_S1x64_S10000x64 (ix2 p k)) _ = _
  rw [hb]
  rfl

/-- One block's product: entry (p, q) of what the body stores is the matrix product's entry. -/
theorem block_apply (x0 : Vec Ideal S10000x64 .f32) (x1 : Vec Ideal S1x64 .f32) (x2 : Vec Ideal S64x64 .f32)
    (p : Fin 10000) (q : Fin 64) :
    k2_pay1 (F := Ideal) x0 x1 x2 (ix2 p q) = Cert.LibMatRows.prod (Cert.LibMatRows.act x0 x1) x2 (ix2 p q) := by
  unfold k2_pay1
  refine (Cert.LibMatRows.matmul_zero_apply dot_S10000x64_S64x64_S10000x64_1_0_0_1_n_n rfl rfl (fun _ _ => rfl) (fun _ _ => rfl)
    (fun _ _ => rfl) (fun _ _ => rfl) none _ _ p q).trans ?_
  rw [Cert.LibMatRows.prod_apply, Cert.LibMatRows.prod_apply]
  refine Finset.sum_congr rfl fun k _ => ?_
  exact congrArg (· * x2 (ix2 k q)) (act_apply x0 x1 p k)

/-- Where the windows' blocks sit at each grid point: the feature block and the result block at point t start at row
    10000 · t, column 0; the bias row and the weight matrix are whole. -/
theorem index_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

section
variable (V : (c : Dev nD) → (b : Ref sig .tc) → Buf (Elt Ideal) ((c : Thread nD τ).loc b))

/-- What grid point t writes back is block t of the product, of the arrays the region finds. -/
theorem flushed_eq (c : Dev nD) (t : Fin cfg2.N) :
    (dat2 V c).flushed 3 t = ((cfg2.win 3).blk t).view.read (Elt Ideal)
      (Cert.LibMatRows.prod (Cert.LibMatRows.act (V c main_v62) (V c main_v63)) (V c main_arg7)) := by
  show (cfg2.win 3).cut (grid2.coords t) ((dat2 V c).after 3 t) = _
  rw [after2_3]
  unfold out2_3
  rw [View.canon_unit_zero zeros2]
  simp only [View.ld_unit_zero (S := S10000x64) zeros2, View.ld_unit_zero (S := S1x64) zeros2, View.ld_unit_zero (S := S64x64) zeros2]
  obtain ⟨e0, e1, e2, e3, e4, e5, e6⟩ := index_facts t
  funext j
  obtain ⟨p, q, rfl⟩ : ∃ (p : Fin 10000) (q : Fin 64), j = ix2 p q := ⟨j 0, j 1, eq_ix2 j⟩
  refine (block_apply (iblk2 V c 0 t) (iblk2 V c 1 t) (iblk2 V c 2 t) p q).trans ?_
  rw [View.read_apply, Cert.LibMatRows.prod_apply]
  unfold Cert.LibMatRows.prod
  refine Finset.sum_congr rfl fun k _ => ?_
  have hx : iblk2 V c 0 t (ix2 p k)
      = V c main_v62 (ix2 (n0 := 200000) (n1 := 64) ((((cfg2.win 3).blk t).view.emb (ix2 p q)) 0) k) := by
    show V c main_v62 (((cfg2.win 0).blk t).view.emb (ix2 p k)) = _
    refine congrArg (V c main_v62) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  have hb : iblk2 V c 1 t (ix2 (0 : Fin 1) k) = V c main_v63 (ix2 (n0 := 1) (n1 := 64) (0 : Fin 1) k) := by
    show V c main_v63 (((cfg2.win 1).blk t).view.emb (ix2 (0 : Fin 1) k)) = _
    refine congrArg (V c main_v63) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  have hw : iblk2 V c 2 t (ix2 k q)
      = V c main_arg7 (ix2 (n0 := 64) (n1 := 64) k ((((cfg2.win 3).blk t).view.emb (ix2 p q)) 1)) := by
    show V c main_arg7 (((cfg2.win 2).blk t).view.emb (ix2 k q)) = _
    refine congrArg (V c main_arg7) (funext fun a => Fin.ext ?_)
    match a with
    | ⟨0, _⟩ => show win2_2.index t (0 : Fin 2) * 64 + 1 * k.val = k.val; omega
    | ⟨1, _⟩ => show win2_2.index t (1 : Fin 2) * 64 + 1 * q.val = win2_3.index t (1 : Fin 2) * 64 + 1 * q.val; omega
  exact Cert.LibMatRows.act_mul_congr (iblk2 V c 0 t) (iblk2 V c 1 t) (iblk2 V c 2 t) _ _ _ p _ k q _ hx hb hw

/-- An index of the result array lies in point t's block iff each coordinate lies in the block's range. -/
theorem mem_blk (t : Fin cfg2.N) (i : S200000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v64).slice (win2_3.rect t)).set ↔ _
  rw [View.set_slice_whole, Rect.mem_set_unit]
  exact Iff.rfl

/-- Every block of rows is some grid point's. -/
theorem point_onto : ∀ q0 : Fin 20, ∃ t : Fin cfg2.N, win2_3.index t = ![q0.val, 0] :=
  (by decide +kernel : ∀ q0 : Fin 20, ∃ t : Fin grid2.N, win2_3.index t = ![q0.val, 0])

/-- Row r lies in the block of point r / 10000: the 20 blocks cover the result array. -/
theorem cover (i : S200000x64.Idx) :
    ∃ t : Fin cfg2.N, (cfg2.win 3).flush t = true ∧ i ∈ ((cfg2.win 3).blk t).view.set := by
  have hi0 : (i 0).val < 200000 := (i 0).isLt
  have hi1 : (i 1).val < 64 := (i 1).isLt
  obtain ⟨t, ht⟩ := point_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The region's result array, after the run, is the product of the rectified sum with the weights, of the arrays the
    region finds. -/
theorem array_eq (c : Dev nD) :
    (dat2 V c).arrAt 3 cfg2.N = Cert.LibMatRows.prod (Cert.LibMatRows.act (V c main_v62) (V c main_v63)) (V c main_arg7) :=
  (dat2 V c).arrAt_eq_of_cover 3 _ (fun t _ => flushed_eq V c t) cover

end

end Cert.KernelIdeal.Layer3

end
-- ==== Proof.Region3.lean ====
/-
  The third layer's bias. The last pallas_call cuts the aggregated features [200000, 64] into 20 blocks of 10000 rows and on each
  block adds the bias row [1, 64] under every row. Entry (r, q) of the result is agg (r, q) + bias q whichever block computed
  it: the result array is the matrix plus the row under every row.
-/
import proofs.«129860_j22084721836225_2_alg».proof.Proof.Gen.KernelIdeal.Frame
import proofs.«129860_j22084721836225_2_alg».proof.Proof.LibMatRows
import Idealize.ShloMosaic.Lib.Pipeline.Value

set_option maxRecDepth 16384

noncomputable section

namespace Cert.KernelIdeal.Layer3Bias

open Idealize.ShloMosaic Idealize.ShloMosaic.TcCoe Idealize.ShloMosaic.ValueIdx Idealize.SL.Sem
open Cert.KernelIdeal Cert.KernelIdeal.Gen
open scoped BigOperators

theorem zeros2 : (![0, 0] : Fin 2 → Nat) = fun _ => 0 := funext fun a => by fin_cases a <;> rfl

/-- One block's sum, at an entry. -/
theorem block_apply (x0 : Vec Ideal S10000x64 .f32) (x1 : Vec Ideal S1x64 .f32) (p : Fin 10000) (q : Fin 64) :
    k3_pay1 (F := Ideal) x0 x1 (ix2 p q) = Cert.LibMatRows.plusRow x0 x1 (ix2 p q) := by
  unfold k3_pay1
  rw [shapeCast_self x0, shapeCast_self x1]
  have hb : broadcastTo S10000x64 x1 broadcasts_S1x64_S10000x64 (ix2 p q) = x1 (ix2 (0 : Fin 1) q) :=
    broadcastTo_apply x1 broadcasts_S1x64_S10000x64 (ix2 p q) (ix2 (0 : Fin 1) q) fun a => by
      match a with
      | ⟨0, _⟩ => rfl
      | ⟨1, _⟩ => rfl
  show x0 (ix2 p q) + broadcastTo S10000x64 x1 broadcasts_S1x64_S10000x64 (ix2 p q) = _
  rw [hb]
  rfl

/-- Where the windows' blocks sit at each grid point: the feature block and the result block at point t start at row
    10000 · t, column 0; the bias row is whole. -/
theorem index_facts : ∀ t : Fin cfg3.N, win3_0.index t (0 : Fin 2) = win3_2.index t (0 : Fin 2)
    ∧ win3_0.index t (1 : Fin 2) = win3_2.index t (1 : Fin 2) ∧ win3_1.index t (0 : Fin 2) = 0 ∧ win3_1.index t (1 : Fin 2) = 0
    ∧ win3_2.index t (1 : Fin 2) = 0 :=
  (by decide +kernel : ∀ t : Fin grid3.N, _)

section
variable (V : (c : Dev nD) → (b : Ref sig .tc) → Buf (Elt Ideal) ((c : Thread nD τ).loc b))

/-- What grid point t writes back is block t of the sum, of the arrays the region finds. -/
theorem flushed_eq (c : Dev nD) (t : Fin cfg3.N) :
    (dat3 V c).flushed 2 t = ((cfg3.win 2).blk t).view.read (Elt Ideal)
      (Cert.LibMatRows.plusRow (V c main_v78) (V c main_v79)) := by
  show (cfg3.win 2).cut (grid3.coords t) ((dat3 V c).after 2 t) = _
  rw [after3_2]
  unfold out3_2
  rw [View.canon_unit_zero zeros2]
  simp only [View.ld_unit_zero (S := S10000x64) zeros2, View.ld_unit_zero (S := S1x64) zeros2]
  obtain ⟨e0, e1, e2, e3, e4⟩ := index_facts t
  funext j
  obtain ⟨p, q, rfl⟩ : ∃ (p : Fin 10000) (q : Fin 64), j = ix2 p q := ⟨j 0, j 1, eq_ix2 j⟩
  refine (block_apply (iblk3 V c 0 t) (iblk3 V c 1 t) p q).trans ?_
  rw [View.read_apply]
  rw [eq_ix2 (((cfg3.win 2).blk t).view.emb (ix2 p q))]
  have hx : iblk3 V c 0 t (ix2 p q) = V c main_v78 (ix2 (n0 := 200000) (n1 := 64) ((((cfg3.win 2).blk t).view.emb (ix2 p q)) 0)
      ((((cfg3.win 2).blk t).view.emb (ix2 p q)) 1)) := by
    show V c main_v78 (((cfg3.win 0).blk t).view.emb (ix2 p q)) = _
    refine congrArg (V c main_v78) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hb : iblk3 V c 1 t (ix2 (0 : Fin 1) q)
      = V c main_v79 (ix2 (n0 := 1) (n1 := 64) (0 : Fin 1) ((((cfg3.win 2).blk t).view.emb (ix2 p q)) 1)) := by
    show V c main_v79 (((cfg3.win 1).blk t).view.emb (ix2 (0 : Fin 1) q)) = _
    refine congrArg (V c main_v79) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  exact Cert.LibMatRows.plusRow_congr (iblk3 V c 0 t) (iblk3 V c 1 t) _ _ p _ q _ hx hb

/-- An index of the result array lies in point t's block iff each coordinate lies in the block's range. -/
theorem mem_blk (t : Fin cfg3.N) (i : S200000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v80).slice (win3_2.rect t)).set ↔ _
  rw [View.set_slice_whole, Rect.mem_set_unit]
  exact Iff.rfl

/-- Every block of rows is some grid point's. -/
theorem point_onto : ∀ q0 : Fin 20, ∃ t : Fin cfg3.N, win3_2.index t = ![q0.val, 0] :=
  (by decide +kernel : ∀ q0 : Fin 20, ∃ t : Fin grid3.N, win3_2.index t = ![q0.val, 0])

/-- Row r lies in the block of point r / 10000: the 20 blocks cover the result array. -/
theorem cover (i : S200000x64.Idx) :
    ∃ t : Fin cfg3.N, (cfg3.win 2).flush t = true ∧ i ∈ ((cfg3.win 2).blk t).view.set := by
  have hi0 : (i 0).val < 200000 := (i 0).isLt
  have hi1 : (i 1).val < 64 := (i 1).isLt
  obtain ⟨t, ht⟩ := point_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The region's result array, after the run, is the sum, of the arrays the region finds. -/
theorem array_eq (c : Dev nD) :
    (dat3 V c).arrAt 2 cfg3.N = Cert.LibMatRows.plusRow (V c main_v78) (V c main_v79) :=
  (dat3 V c).arrAt_eq_of_cover 2 _ (fun t _ => flushed_eq V c t) cover

end

end Cert.KernelIdeal.Layer3Bias

end
-- ==== Proof.Bridge.lean ====
/-
  The network's named parts against the plain matrix vocabulary. The reference's dense products are matrix products; a bias
  recast as a [1, 64] row and laid under every row is the reference's broadcast of the bias (both read, at (p, j), the bias's
  entry j); so the matrix plus the row is the reference's sum with the broadcast bias, and the rectified sum is the reference's
  rectifier of it (the zero both compare with is the same word).
-/
import proofs.«129860_j22084721836225_2_alg».proof.Proof.LibMatRows
import proofs.«129860_j22084721836225_2_alg».proof.Proof.Spec
import Idealize.ShloMosaic.Lib.Pipeline.Value

set_option maxRecDepth 16384

noncomputable section

namespace Cert.Bridge

open Idealize.ShloMosaic Idealize.ShloMosaic.ValueIdx
open Cert.ReferenceIdeal Cert.ReferenceIdeal.Gen

/-- The first layer's dense product is the matrix product. -/
theorem dense1_eq (x : FVec Ideal S200000x11 .f32) (w : FVec Ideal S11x64 .f32) : Cert.Spec.dense1 x w = Cert.LibMatRows.prod x w :=
  Cert.LibMatRows.hostDot_eq dot_S200000x11_S11x64_S200000x64_1_0_0_1_n_n rfl rfl (fun _ _ => rfl) (fun _ _ => rfl)
    (fun _ _ => rfl) (fun _ _ => rfl) none x w

/-- A later layer's dense product is the matrix product. -/
theorem dense_eq (h : FVec Ideal S200000x64 .f32) (w : FVec Ideal S64x64 .f32) : Cert.Spec.dense h w = Cert.LibMatRows.prod h w :=
  Cert.LibMatRows.hostDot_eq dot_S200000x64_S64x64_S200000x64_1_0_0_1_n_n rfl rfl (fun _ _ => rfl) (fun _ _ => rfl)
    (fun _ _ => rfl) (fun _ _ => rfl) none h w

/-- The reference's broadcast of a bias, at (p, j), is the bias's entry j. -/
theorem biasRows_apply (b : FVec Ideal S64 .f32) (p : Fin 200000) (j : Fin 64) :
    Cert.Spec.biasRows b (ix2 p j) = b (ix1 j) := by
  unfold Cert.Spec.biasRows
  refine (broadcastInDim_apply ![0, 1] bcast_S1x64_S200000x64_0_1 _ (ix2 p j) (ix2 (0 : Fin 1) j) fun a => ?_).trans ?_
  · match a with
    | ⟨0, _⟩ => rfl
    | ⟨1, _⟩ => rfl
  · exact broadcastInDim_apply ![1] bcast_S64_S1x64_1 b (ix2 (0 : Fin 1) j) (ix1 j) fun a => by
      match a with
      | ⟨0, _⟩ => rfl

/-- A bias recast as a [1, 64] row, at (0, j), is the bias's entry j. -/
theorem castRow_apply (b : FVec Ideal S64 .f32) (h : S64.ShapeCasts S1x64) (j : Fin 64) :
    shapeCast S1x64 b h (ix2 (0 : Fin 1) j) = b (ix1 j) :=
  shapeCast_apply b h _ _ (by
    rw [Shape.rowMajor_val_two, Shape.rowMajor_val_one]
    show j.val = 0 * 64 + j.val
    omega)

/-- The recast row laid under every row is the reference's broadcast of the bias. -/
theorem under_row (b : FVec Ideal S64 .f32) (h : S64.ShapeCasts S1x64) :
    Cert.LibMatRows.under (n := 200000) (Cert.Spec.rowOf b h) = Cert.Spec.biasRows b := by
  funext i
  rw [eq_ix2 i]
  exact (castRow_apply b h (i 1)).trans (biasRows_apply b (i 0) (i 1)).symm

/-- The matrix plus the recast row is the reference's sum with the broadcast bias. -/
theorem plusRow_row (A : FVec Ideal S200000x64 .f32) (b : FVec Ideal S64 .f32) (h : S64.ShapeCasts S1x64) :
    Cert.LibMatRows.plusRow A (Cert.Spec.rowOf b h) = addf A (Cert.Spec.biasRows b) := by
  funext i
  show A i + Cert.LibMatRows.under (n := 200000) (Cert.Spec.rowOf b h) i = A i + Cert.Spec.biasRows b i
  rw [under_row]

/-- The rectified sum with the recast row is the reference's rectifier of the sum with the broadcast bias. -/
theorem act_row (A : FVec Ideal S200000x64 .f32) (b : FVec Ideal S64 .f32) (h : S64.ShapeCasts S1x64) :
    Cert.LibMatRows.act A (Cert.Spec.rowOf b h) = Cert.Spec.reluOf (addf A (Cert.Spec.biasRows b)) := by
  unfold Cert.LibMatRows.act Cert.Spec.reluOf
  rw [plusRow_row]
  rfl

end Cert.Bridge

end
-- ==== Proof.Values.lean ====
/-
  What the idealized kernel's buffers hold at each segment boundary, as parts of the network applied to the launch memory.
  Before the first pallas_call the host computes the edge lists and the edge weights from the edge list. Each pallas_call's
  result array is a dense product (of the features it finds, with the previous layer's bias and rectifier applied first in
  the second and third call) or the last bias sum; each stretch between them aggregates the previous product over the edges
  and recasts the next bias as a row; the last stretch is the read-out. Buffers written earlier and arguments are carried
  unchanged to where they are read. At the end the result buffer holds the whole network of the argument arrays.
-/
import proofs.«129860_j22084721836225_2_alg».proof.Proof.Kept
import proofs.«129860_j22084721836225_2_alg».proof.Proof.Stretch
import proofs.«129860_j22084721836225_2_alg».proof.Proof.Region0
import proofs.«129860_j22084721836225_2_alg».proof.Proof.Region1
import proofs.«129860_j22084721836225_2_alg».proof.Proof.Region2
import proofs.«129860_j22084721836225_2_alg».proof.Proof.Region3
import proofs.«129860_j22084721836225_2_alg».proof.Proof.Bridge

set_option maxRecDepth 16384

noncomputable section

namespace Cert.KernelIdeal.Values

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## When the first pallas_call is entered -/

/-- The edges' source nodes. -/
theorem src3 : W3 m ρ c (Proc.devRef .tc main_v3) = Cert.Spec.srcOf (m ((c : Thread nD τ).loc main_arg1)) :=
  (StableHlo.after_of_writes_sub hostOps0_2 _ Cert.KernelIdeal.Kept.hostOps0_2_writes (by decide)).trans
    ((StableHlo.after_of_writes_sub hostOps0_1 _ Cert.KernelIdeal.Kept.hostOps0_1_writes (by decide)).trans
      (Cert.KernelIdeal.Stretch.src_eq (W0 m ρ c)))

/-- The edges' destination nodes. -/
theorem dst3 : W3 m ρ c (Proc.devRef .tc main_v6) = Cert.Spec.dstOf (m ((c : Thread nD τ).loc main_arg1)) :=
  (StableHlo.after_of_writes_sub hostOps0_2 _ Cert.KernelIdeal.Kept.hostOps0_2_writes (by decide)).trans
    ((StableHlo.after_of_writes_sub hostOps0_1 _ Cert.KernelIdeal.Kept.hostOps0_1_writes (by decide)).trans
      (Cert.KernelIdeal.Stretch.dst_eq (W0 m ρ c)))

/-- The edge weights. -/
theorem norm3 : W3 m ρ c (Proc.devRef .tc main_v31) = Cert.Spec.normOf (m ((c : Thread nD τ).loc main_arg1)) := by
  refine (Cert.KernelIdeal.Stretch.norm_eq (W2 m ρ c)).trans ?_
  have hp : W1 m ρ c (Proc.devRef .tc main_v12) = Cert.Spec.posOf (m ((c : Thread nD τ).loc main_arg1)) := Cert.KernelIdeal.Stretch.pos_eq (W0 m ρ c)
  have hi : W1 m ρ c (Proc.devRef .tc main_v15) = Cert.Spec.invOf (m ((c : Thread nD τ).loc main_arg1)) := Cert.KernelIdeal.Stretch.inv_eq (W0 m ρ c)
  have hz : W1 m ρ c (Proc.devRef .tc main_cst_3) = Cert.Spec.zeroS := Cert.KernelIdeal.Stretch.zero_eq (W0 m ρ c)
  have h16 : W2 m ρ c (Proc.devRef .tc main_v16) = Cert.Spec.disOf (m ((c : Thread nD τ).loc main_arg1)) := by
    refine (Cert.KernelIdeal.Stretch.dis_eq (W1 m ρ c)).trans ?_
    rw [hp, hi, hz]
    rfl
  have h3 : W2 m ρ c (Proc.devRef .tc main_v3) = Cert.Spec.srcOf (m ((c : Thread nD τ).loc main_arg1)) :=
    (StableHlo.after_of_writes_sub hostOps0_1 _ Cert.KernelIdeal.Kept.hostOps0_1_writes (by decide)).trans
      (Cert.KernelIdeal.Stretch.src_eq (W0 m ρ c))
  have h6 : W2 m ρ c (Proc.devRef .tc main_v6) = Cert.Spec.dstOf (m ((c : Thread nD τ).loc main_arg1)) :=
    (StableHlo.after_of_writes_sub hostOps0_1 _ Cert.KernelIdeal.Kept.hostOps0_1_writes (by decide)).trans
      (Cert.KernelIdeal.Stretch.dst_eq (W0 m ρ c))
  rw [h16, h3, h6]
  rfl

/-! ## The first layer -/

/-- The first pallas_call leaves the first dense product. -/
theorem lin1 : W4 m ρ c (Proc.devRef .tc main_v32) = Cert.Spec.dense1 (m ((c : Thread nD τ).loc main_arg0)) (m ((c : Thread nD τ).loc main_arg3)) := by
  refine (W4_arr m ρ c 2).trans ((Cert.KernelIdeal.Layer1.array_eq (V3 m ρ) c).trans ?_)
  have h0 : V3 m ρ c main_arg0 = (m ((c : Thread nD τ).loc main_arg0)) := Cert.KernelIdeal.Kept.at3 m ρ c main_arg0 (by decide) (by decide) (by decide)
  have h3 : V3 m ρ c main_arg3 = (m ((c : Thread nD τ).loc main_arg3)) := Cert.KernelIdeal.Kept.at3 m ρ c main_arg3 (by decide) (by decide) (by decide)
  rw [h0, h3]
  exact (Cert.Bridge.dense1_eq _ _).symm

/-- Its aggregation over the edges. -/
theorem agg1 : W5 m ρ c (Proc.devRef .tc main_v46) = Cert.Spec.aggOf (m ((c : Thread nD τ).loc main_arg1)) (Cert.Spec.dense1 (m ((c : Thread nD τ).loc main_arg0)) (m ((c : Thread nD τ).loc main_arg3))) := by
  refine (Cert.KernelIdeal.Stretch.agg1_eq (W4 m ρ c)).trans ?_
  have hs : W4 m ρ c (Proc.devRef .tc main_v3) = Cert.Spec.srcOf (m ((c : Thread nD τ).loc main_arg1)) := (W4_of_ne m ρ c main_v3 (by decide)).trans (src3 m ρ c)
  have hd : W4 m ρ c (Proc.devRef .tc main_v6) = Cert.Spec.dstOf (m ((c : Thread nD τ).loc main_arg1)) := (W4_of_ne m ρ c main_v6 (by decide)).trans (dst3 m ρ c)
  have hn : W4 m ρ c (Proc.devRef .tc main_v31) = Cert.Spec.normOf (m ((c : Thread nD τ).loc main_arg1)) := (W4_of_ne m ρ c main_v31 (by decide)).trans (norm3 m ρ c)
  rw [hs, hd, hn, lin1 m ρ c]
  rfl

/-- The first bias as a row. -/
theorem row1 : W5 m ρ c (Proc.devRef .tc main_v47) = Cert.Spec.rowOf (m ((c : Thread nD τ).loc main_arg4)) shapeCasts_S64_S1x64 := by
  refine (Cert.KernelIdeal.Stretch.row1_eq (W4 m ρ c)).trans ?_
  have h : W4 m ρ c (Proc.devRef .tc main_arg4) = (m ((c : Thread nD τ).loc main_arg4)) := (W4_of_ne m ρ c main_arg4 (by decide)).trans (Cert.KernelIdeal.Kept.at3 m ρ c main_arg4 (by decide) (by decide) (by decide))
  rw [h]

/-! ## The second layer -/

/-- The second pallas_call leaves the second dense product, of the first layer's features. -/
theorem lin2 : W6 m ρ c (Proc.devRef .tc main_v48) = Cert.Spec.dense (Cert.Spec.layer1 (m ((c : Thread nD τ).loc main_arg0)) (m ((c : Thread nD τ).loc main_arg1)) (m ((c : Thread nD τ).loc main_arg3)) (m ((c : Thread nD τ).loc main_arg4))) (m ((c : Thread nD τ).loc main_arg5)) := by
  refine (W6_arr m ρ c 3).trans ((Cert.KernelIdeal.Layer2.array_eq (V5 m ρ) c).trans ?_)
  have ha : V5 m ρ c main_v46 = Cert.Spec.aggOf (m ((c : Thread nD τ).loc main_arg1)) (Cert.Spec.dense1 (m ((c : Thread nD τ).loc main_arg0)) (m ((c : Thread nD τ).loc main_arg3))) := agg1 m ρ c
  have hb : V5 m ρ c main_v47 = Cert.Spec.rowOf (m ((c : Thread nD τ).loc main_arg4)) shapeCasts_S64_S1x64 := row1 m ρ c
  have hw : V5 m ρ c main_arg5 = (m ((c : Thread nD τ).loc main_arg5)) := (Cert.KernelIdeal.Kept.at5 m ρ c main_arg5 (by decide) (by decide)).trans (Cert.KernelIdeal.Kept.at3 m ρ c main_arg5 (by decide) (by decide) (by decide))
  rw [ha, hb, hw, Cert.Bridge.act_row]
  exact (Cert.Bridge.dense_eq _ _).symm

/-- Its aggregation over the edges. -/
theorem agg2 : W7 m ρ c (Proc.devRef .tc main_v62) = Cert.Spec.aggOf (m ((c : Thread nD τ).loc main_arg1)) (Cert.Spec.dense (Cert.Spec.layer1 (m ((c : Thread nD τ).loc main_arg0)) (m ((c : Thread nD τ).loc main_arg1)) (m ((c : Thread nD τ).loc main_arg3)) (m ((c : Thread nD τ).loc main_arg4))) (m ((c : Thread nD τ).loc main_arg5))) := by
  refine (Cert.KernelIdeal.Stretch.agg2_eq (W6 m ρ c)).trans ?_
  have hs : W6 m ρ c (Proc.devRef .tc main_v3) = Cert.Spec.srcOf (m ((c : Thread nD τ).loc main_arg1)) := (W6_of_ne m ρ c main_v3 (by decide)).trans ((Cert.KernelIdeal.Kept.at5 m ρ c main_v3 (by decide) (by decide)).trans (src3 m ρ c))
  have hd : W6 m ρ c (Proc.devRef .tc main_v6) = Cert.Spec.dstOf (m ((c : Thread nD τ).loc main_arg1)) := (W6_of_ne m ρ c main_v6 (by decide)).trans ((Cert.KernelIdeal.Kept.at5 m ρ c main_v6 (by decide) (by decide)).trans (dst3 m ρ c))
  have hn : W6 m ρ c (Proc.devRef .tc main_v31) = Cert.Spec.normOf (m ((c : Thread nD τ).loc main_arg1)) := (W6_of_ne m ρ c main_v31 (by decide)).trans ((Cert.KernelIdeal.Kept.at5 m ρ c main_v31 (by decide) (by decide)).trans (norm3 m ρ c))
  rw [hs, hd, hn, lin2 m ρ c]
  rfl

/-- The second bias as a row. -/
theorem row2 : W7 m ρ c (Proc.devRef .tc main_v63) = Cert.Spec.rowOf (m ((c : Thread nD τ).loc main_arg6)) shapeCasts_S64_S1x64 := by
  refine (Cert.KernelIdeal.Stretch.row2_eq (W6 m ρ c)).trans ?_
  have h : W6 m ρ c (Proc.devRef .tc main_arg6) = (m ((c : Thread nD τ).loc main_arg6)) := (W6_of_ne m ρ c main_arg6 (by decide)).trans ((Cert.KernelIdeal.Kept.at5 m ρ c main_arg6 (by decide) (by decide)).trans (Cert.KernelIdeal.Kept.at3 m ρ c main_arg6 (by decide) (by decide) (by decide)))
  rw [h]

/-! ## The third layer -/

/-- The third pallas_call leaves the third dense product, of the second layer's features. -/
theorem lin3 : W8 m ρ c (Proc.devRef .tc main_v64) = Cert.Spec.dense (Cert.Spec.layer2 (Cert.Spec.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg7)) := by
  refine (W8_arr m ρ c 3).trans ((Cert.KernelIdeal.Layer3.array_eq (V7 m ρ) c).trans ?_)
  have ha : V7 m ρ c main_v62 = Cert.Spec.aggOf (m ((c : Thread nD τ).loc main_arg1)) (Cert.Spec.dense (Cert.Spec.layer1 (m ((c : Thread nD τ).loc main_arg0)) (m ((c : Thread nD τ).loc main_arg1)) (m ((c : Thread nD τ).loc main_arg3)) (m ((c : Thread nD τ).loc main_arg4))) (m ((c : Thread nD τ).loc main_arg5))) := agg2 m ρ c
  have hb : V7 m ρ c main_v63 = Cert.Spec.rowOf (m ((c : Thread nD τ).loc main_arg6)) shapeCasts_S64_S1x64 := row2 m ρ c
  have hw : V7 m ρ c main_arg7 = (m ((c : Thread nD τ).loc main_arg7)) := (Cert.KernelIdeal.Kept.at7 m ρ c main_arg7 (by decide) (by decide)).trans ((Cert.KernelIdeal.Kept.at5 m ρ c main_arg7 (by decide) (by decide)).trans (Cert.KernelIdeal.Kept.at3 m ρ c main_arg7 (by decide) (by decide) (by decide)))
  rw [ha, hb, hw, Cert.Bridge.act_row]
  exact (Cert.Bridge.dense_eq _ _).symm

/-- Its aggregation over the edges. -/
theorem agg3 : W9 m ρ c (Proc.devRef .tc main_v78) = Cert.Spec.aggOf (m ((c : Thread nD τ).loc main_arg1)) (Cert.Spec.dense (Cert.Spec.layer2 (Cert.Spec.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg7))) := by
  refine (Cert.KernelIdeal.Stretch.agg3_eq (W8 m ρ c)).trans ?_
  have hs : W8 m ρ c (Proc.devRef .tc main_v3) = Cert.Spec.srcOf (m ((c : Thread nD τ).loc main_arg1)) := (W8_of_ne m ρ c main_v3 (by decide)).trans ((Cert.KernelIdeal.Kept.at7 m ρ c main_v3 (by decide) (by decide)).trans ((Cert.KernelIdeal.Kept.at5 m ρ c main_v3 (by decide) (by decide)).trans (src3 m ρ c)))
  have hd : W8 m ρ c (Proc.devRef .tc main_v6) = Cert.Spec.dstOf (m ((c : Thread nD τ).loc main_arg1)) := (W8_of_ne m ρ c main_v6 (by decide)).trans ((Cert.KernelIdeal.Kept.at7 m ρ c main_v6 (by decide) (by decide)).trans ((Cert.KernelIdeal.Kept.at5 m ρ c main_v6 (by decide) (by decide)).trans (dst3 m ρ c)))
  have hn : W8 m ρ c (Proc.devRef .tc main_v31) = Cert.Spec.normOf (m ((c : Thread nD τ).loc main_arg1)) := (W8_of_ne m ρ c main_v31 (by decide)).trans ((Cert.KernelIdeal.Kept.at7 m ρ c main_v31 (by decide) (by decide)).trans ((Cert.KernelIdeal.Kept.at5 m ρ c main_v31 (by decide) (by decide)).trans (norm3 m ρ c)))
  rw [hs, hd, hn, lin3 m ρ c]
  rfl

/-- The third bias as a row. -/
theorem row3 : W9 m ρ c (Proc.devRef .tc main_v79) = Cert.Spec.rowOf (m ((c : Thread nD τ).loc main_arg8)) shapeCasts_S64_S1x64 := by
  refine (Cert.KernelIdeal.Stretch.row3_eq (W8 m ρ c)).trans ?_
  have h : W8 m ρ c (Proc.devRef .tc main_arg8) = (m ((c : Thread nD τ).loc main_arg8)) := (W8_of_ne m ρ c main_arg8 (by decide)).trans ((Cert.KernelIdeal.Kept.at7 m ρ c main_arg8 (by decide) (by decide)).trans ((Cert.KernelIdeal.Kept.at5 m ρ c main_arg8 (by decide) (by decide)).trans (Cert.KernelIdeal.Kept.at3 m ρ c main_arg8 (by decide) (by decide) (by decide))))
  rw [h]

/-- The last pallas_call leaves the node features after the three layers. -/
theorem nodes : W10 m ρ c (Proc.devRef .tc main_v80) = Cert.Spec.nodesOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Cert.KernelIdeal.Layer3Bias.array_eq (V9 m ρ) c).trans ?_)
  have ha : V9 m ρ c main_v78 = Cert.Spec.aggOf (m ((c : Thread nD τ).loc main_arg1)) (Cert.Spec.dense (Cert.Spec.layer2 (Cert.Spec.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg7))) := agg3 m ρ c
  have hb : V9 m ρ c main_v79 = Cert.Spec.rowOf (m ((c : Thread nD τ).loc main_arg8)) shapeCasts_S64_S1x64 := row3 m ρ c
  rw [ha, hb, Cert.Bridge.plusRow_row]
  rfl

/-! ## The result -/

/-- After the last stretch the result buffer holds the whole network of the argument arrays. -/
theorem result : W11 m ρ c (Proc.devRef .tc main_v96)
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Cert.KernelIdeal.Stretch.tail_eq (W10 m ρ c)).trans ?_
  have h2 : W10 m ρ c (Proc.devRef .tc main_arg2) = (m ((c : Thread nD τ).loc main_arg2)) := (W10_of_ne m ρ c main_arg2 (by decide)).trans ((Cert.KernelIdeal.Kept.at9 m ρ c main_arg2 (by decide) (by decide)).trans ((Cert.KernelIdeal.Kept.at7 m ρ c main_arg2 (by decide) (by decide)).trans ((Cert.KernelIdeal.Kept.at5 m ρ c main_arg2 (by decide) (by decide)).trans (Cert.KernelIdeal.Kept.at3 m ρ c main_arg2 (by decide) (by decide) (by decide)))))
  have h9 : W10 m ρ c (Proc.devRef .tc main_arg9) = (m ((c : Thread nD τ).loc main_arg9)) := (W10_of_ne m ρ c main_arg9 (by decide)).trans ((Cert.KernelIdeal.Kept.at9 m ρ c main_arg9 (by decide) (by decide)).trans ((Cert.KernelIdeal.Kept.at7 m ρ c main_arg9 (by decide) (by decide)).trans ((Cert.KernelIdeal.Kept.at5 m ρ c main_arg9 (by decide) (by decide)).trans (Cert.KernelIdeal.Kept.at3 m ρ c main_arg9 (by decide) (by decide) (by decide)))))
  have h10 : W10 m ρ c (Proc.devRef .tc main_arg10) = (m ((c : Thread nD τ).loc main_arg10)) := (W10_of_ne m ρ c main_arg10 (by decide)).trans ((Cert.KernelIdeal.Kept.at9 m ρ c main_arg10 (by decide) (by decide)).trans ((Cert.KernelIdeal.Kept.at7 m ρ c main_arg10 (by decide) (by decide)).trans ((Cert.KernelIdeal.Kept.at5 m ρ c main_arg10 (by decide) (by decide)).trans (Cert.KernelIdeal.Kept.at3 m ρ c main_arg10 (by decide) (by decide) (by decide)))))
  rw [nodes m ρ c, h2, h9, h10]
  rfl

end Cert.KernelIdeal.Values

end
-- ==== Proof.RefSpec.lean ====
/-
  The reference's result is the network. Its run ends with the result buffer at the composite of its host operations applied to
  the argument arrays; grouped under the names of the network's parts (the edge lists, the edge weights, the aggregation, the
  dense products, the bias rows, the rectifier, the read-out) that composite is `Cert.Spec.result` of the arguments, term for term.
-/
import proofs.«129860_j22084721836225_2_alg».proof.Proof.RefRun
import proofs.«129860_j22084721836225_2_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

/-- The reference run's result term is the network of the argument arrays. -/
theorem result_eq (m : (ℓ : Loc nD τ sig) → Buf (Elt Ideal) ℓ) (c : Dev nD) :
    res_main_v100 (F := Ideal) m c
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v100
  rfl

end Cert.ReferenceIdeal.RefValue

end
-- ==== Proof.lean ====
/-
  A three-layer graph convolution network with mean pooling, as a kernel program of four pallas_calls among host operations,
  against its plain reference: both compute, over the extended reals, the same function of the argument arrays.

  The network. Nodes carry features; the edges are the 1,000,000 given ones followed by a self-loop per node. With deg v the
  number of edges into v and dis v = 1/sqrt (max (deg v) 1) where deg v > 0 (else 0), an edge e weighs
  norm e = dis (src e) · dis (dst e), and a layer sends features h to agg (h · W) + b, where agg adds, for every edge, the
  source node's row scaled by the edge's weight into the destination node's row. Three layers, max (·, 0) after the first
  two; then each graph's mean node row (sum / max (count, 1)) times lin_w, plus lin_b.

  The two programs. The reference applies these operations in that order on the host. The kernel program computes the edge
  lists and weights, the aggregations and the read-out with the same host operations, and the dense parts in pallas_calls over
  20 blocks of 10000 rows: x · W1; then max (agg + b, 0) · W with the previous layer's bias and rectifier fused in front of the
  product (twice); then agg + b. Over the extended reals rounding to bf16 is the identity, a block's product on the matrix
  unit is the textbook sum, and row r of a result lies in block r / 10000 whichever block computed it, so each call's result
  array is the whole dense product (or bias sum) of the arrays the call finds. A bias recast as a [1, 64] row and laid under
  every row is the reference's broadcast bias. No law of arithmetic beyond these readings is used, so the precondition
  (finite inputs) is never opened.

  The three frames: the two kernel programs' are the generated frame certificates; the reference's is its run with the result
  dropped. The ideal pass rewrote nothing, so `preserves` is trivial.
-/
import proofs.«129860_j22084721836225_2_alg».proof.Defs
import proofs.«129860_j22084721836225_2_alg».proof.Proof.Gen.Kernel
import proofs.«129860_j22084721836225_2_alg».proof.Proof.Gen.Kernel.Frame
import proofs.«129860_j22084721836225_2_alg».proof.Proof.Gen.KernelIdeal
import proofs.«129860_j22084721836225_2_alg».proof.Proof.Gen.KernelIdeal.Frame
import proofs.«129860_j22084721836225_2_alg».proof.Proof.Gen.ReferenceIdeal
import proofs.«129860_j22084721836225_2_alg».proof.Proof.Gen.Pre_finite_inputs
import proofs.«129860_j22084721836225_2_alg».proof.Proof.KRun
import proofs.«129860_j22084721836225_2_alg».proof.Proof.Values
import proofs.«129860_j22084721836225_2_alg».proof.Proof.RefRun
import proofs.«129860_j22084721836225_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the network of the argument arrays in their result buffer. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Named.run (F := Ideal) m ρ)
    exact ⟨(h c Cert.KernelIdeal.main_v96 (by decide)).trans (Cert.KernelIdeal.Values.result m ρ c),
      (h c Cert.KernelIdeal.main_arg0 (by decide)).trans (Cert.KernelIdeal.Gen.W11_main_arg0 m ρ c),
      (h c Cert.KernelIdeal.main_arg1 (by decide)).trans (Cert.KernelIdeal.Gen.W11_main_arg1 m ρ c),
      (h c Cert.KernelIdeal.main_arg2 (by decide)).trans (Cert.KernelIdeal.Gen.W11_main_arg2 m ρ c),
      (h c Cert.KernelIdeal.main_arg3 (by decide)).trans (Cert.KernelIdeal.Gen.W11_main_arg3 m ρ c),
      (h c Cert.KernelIdeal.main_arg4 (by decide)).trans (Cert.KernelIdeal.Gen.W11_main_arg4 m ρ c),
      (h c Cert.KernelIdeal.main_arg5 (by decide)).trans (Cert.KernelIdeal.Gen.W11_main_arg5 m ρ c),
      (h c Cert.KernelIdeal.main_arg6 (by decide)).trans (Cert.KernelIdeal.Gen.W11_main_arg6 m ρ c),
      (h c Cert.KernelIdeal.main_arg7 (by decide)).trans (Cert.KernelIdeal.Gen.W11_main_arg7 m ρ c),
      (h c Cert.KernelIdeal.main_arg8 (by decide)).trans (Cert.KernelIdeal.Gen.W11_main_arg8 m ρ c),
      (h c Cert.KernelIdeal.main_arg9 (by decide)).trans (Cert.KernelIdeal.Gen.W11_main_arg9 m ρ c),
      (h c Cert.KernelIdeal.main_arg10 (by decide)).trans (Cert.KernelIdeal.Gen.W11_main_arg10 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefValue.result_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
